-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x160x320 : Shape := ⟨4, ![4, 128, 160, 320]⟩
abbrev S_ : Shape := ⟨0, ![]⟩

class Facts : Prop where
  bcast_S_S4x128x160x320 : S_.BroadcastsInDim S4x128x160x320 (![] : Fin 0 → Fin S4x128x160x320.rank)
  reducesTo_S4x128x160x320_S_d0_1_2_3 : S4x128x160x320.ReducesTo [0, 1, 2, 3] S_
  h_S_ : 0 < S_.numel

variable [Facts]

def fn {F : FTy → Type} [FloatOps F] (main_arg0 : FVec F S4x128x160x320 .f32) (main_arg1 : FVec F S4x128x160x320 .f32) : IVec S_ 1 :=
  let main_v0 : FVec F S4x128x160x320 .f32 := Host.absf main_arg0
  let main_cst : FVec F S_ .f32 := constant S_ .f32 0x7F800000#32
  let main_v1 : FVec F S4x128x160x320 .f32 := broadcastInDim S4x128x160x320 ![] bcast_S_S4x128x160x320 main_cst
  let main_v2 : IVec S4x128x160x320 1 := cmpf .olt main_v0 main_v1
  let main_c : IVec S_ 1 := constantI S_ 1 1#1
  let main_v3 : IVec S_ 1 := (fun x v => Host.reduce IntOp.andi x v reducesTo_S4x128x160x320_S_d0_1_2_3 h_S_) main_v2 main_c
  let main_v4 : FVec F S4x128x160x320 .f32 := Host.absf main_arg1
  let main_cst_0 : FVec F S_ .f32 := constant S_ .f32 0x7F800000#32
  let main_v5 : FVec F S4x128x160x320 .f32 := broadcastInDim S4x128x160x320 ![] bcast_S_S4x128x160x320 main_cst_0
  let main_v6 : IVec S4x128x160x320 1 := cmpf .olt main_v4 main_v5
  let main_c_1 : IVec S_ 1 := constantI S_ 1 1#1
  let main_v7 : IVec S_ 1 := (fun x v => Host.reduce IntOp.andi x v reducesTo_S4x128x160x320_S_d0_1_2_3 h_S_) main_v6 main_c_1
  let main_v8 : IVec S_ 1 := andi main_v3 main_v7
  main_v8
-- ==== Kernel.lean ====
abbrev S4x128x160x320 : Shape := ⟨4, ![4, 128, 160, 320]⟩
abbrev S4x41x160x320 : Shape := ⟨4, ![4, 41, 160, 320]⟩
abbrev S1x128x32x320 : Shape := ⟨4, ![1, 128, 32, 320]⟩
abbrev S1x41x32x320 : Shape := ⟨4, ![1, 41, 32, 320]⟩
abbrev S32x320 : Shape := ⟨2, ![32, 320]⟩
abbrev S1x32x32x320 : Shape := ⟨4, ![1, 32, 32, 320]⟩
abbrev S32x32x320 : Shape := ⟨3, ![32, 32, 320]⟩
abbrev S1x1x32x320 : Shape := ⟨4, ![1, 1, 32, 320]⟩

abbrev nBuf : Space → Nat
  | .hbm => 3
  | .vmem => 6
  | .smem => 0
  | _ => 0

abbrev bufTy : (tb : Table) → Fin (tcTables nBuf tb) → BufTy
  | .hbm, ⟨0, _⟩ => ⟨S4x128x160x320, .f32⟩
  | .hbm, ⟨1, _⟩ => ⟨S4x128x160x320, .f32⟩
  | .hbm, ⟨2, _⟩ => ⟨S4x41x160x320, .f32⟩
  | .local _ .vmem, ⟨0, _⟩ => ⟨S1x128x32x320, .f32⟩
  | .local _ .vmem, ⟨1, _⟩ => ⟨S1x128x32x320, .f32⟩
  | .local _ .vmem, ⟨2, _⟩ => ⟨S1x128x32x320, .f32⟩
  | .local _ .vmem, ⟨3, _⟩ => ⟨S1x128x32x320, .f32⟩
  | .local _ .vmem, ⟨4, _⟩ => ⟨S1x41x32x320, .f32⟩
  | .local _ .vmem, ⟨5, _⟩ => ⟨S1x41x32x320, .f32⟩
  | _, _ => ⟨S4x128x160x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x32x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x41x32x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  iota_S32x320_d1_w32 : S32x320.Iotas .tc 32 [1]
  inb_S1x128x32x320_S1x32x32x320_0_0_0_0 : ∀ a, (![0, 0, 0, 0] : Fin 4 → Nat) a + S1x32x32x320.size a ≤ S1x128x32x320.size a
  h_S1x32x32x320 : 0 < S1x32x32x320.numel
  shapeCasts_S1x32x32x320_S32x32x320 : S1x32x32x320.ShapeCasts S32x32x320
  rotates_S32x32x320_d2 : S32x32x320.Rotates 2 none
  reduces_S32x32x320_S32x320 : S32x32x320.Reduces [0] S32x320
  inb_S1x128x32x320_S1x32x32x320_0_32_0_0 : ∀ a, (![0, 32, 0, 0] : Fin 4 → Nat) a + S1x32x32x320.size a ≤ S1x128x32x320.size a
  inb_S1x128x32x320_S1x32x32x320_0_64_0_0 : ∀ a, (![0, 64, 0, 0] : Fin 4 → Nat) a + S1x32x32x320.size a ≤ S1x128x32x320.size a
  inb_S1x128x32x320_S1x32x32x320_0_96_0_0 : ∀ a, (![0, 96, 0, 0] : Fin 4 → Nat) a + S1x32x32x320.size a ≤ S1x128x32x320.size a
  inb_S1x41x32x320_S1x1x32x320_0_0_0_0 : ∀ a, (![0, 0, 0, 0] : Fin 4 → Nat) a + S1x1x32x320.size a ≤ S1x41x32x320.size a
  h_S1x1x32x320 : 0 < S1x1x32x320.numel
  shapeCasts_S1x1x32x320_S32x320 : S1x1x32x320.ShapeCasts S32x320
  shapeCasts_S32x320_S1x1x32x320 : S32x320.ShapeCasts S1x1x32x320
  inb_S1x41x32x320_S1x1x32x320_0_1_0_0 : ∀ a, (![0, 1, 0, 0] : Fin 4 → Nat) a + S1x1x32x320.size a ≤ S1x41x32x320.size a
  inb_S1x41x32x320_S1x1x32x320_0_2_0_0 : ∀ a, (![0, 2, 0, 0] : Fin 4 → Nat) a + S1x1x32x320.size a ≤ S1x41x32x320.size a
  inb_S1x41x32x320_S1x1x32x320_0_3_0_0 : ∀ a, (![0, 3, 0, 0] : Fin 4 → Nat) a + S1x1x32x320.size a ≤ S1x41x32x320.size a
  inb_S1x41x32x320_S1x1x32x320_0_4_0_0 : ∀ a, (![0, 4, 0, 0] : Fin 4 → Nat) a + S1x1x32x320.size a ≤ S1x41x32x320.size a
  inb_S1x41x32x320_S1x1x32x320_0_5_0_0 : ∀ a, (![0, 5, 0, 0] : Fin 4 → Nat) a + S1x1x32x320.size a ≤ S1x41x32x320.size a
  inb_S1x41x32x320_S1x1x32x320_0_6_0_0 : ∀ a, (![0, 6, 0, 0] : Fin 4 → Nat) a + S1x1x32x320.size a ≤ S1x41x32x320.size a
  inb_S1x41x32x320_S1x1x32x320_0_7_0_0 : ∀ a, (![0, 7, 0, 0] : Fin 4 → Nat) a + S1x1x32x320.size a ≤ S1x41x32x320.size a
  inb_S1x41x32x320_S1x1x32x320_0_8_0_0 : ∀ a, (![0, 8, 0, 0] : Fin 4 → Nat) a + S1x1x32x320.size a ≤ S1x41x32x320.size a
  inb_S1x41x32x320_S1x1x32x320_0_9_0_0 : ∀ a, (![0, 9, 0, 0] : Fin 4 → Nat) a + S1x1x32x320.size a ≤ S1x41x32x320.size a
  inb_S1x41x32x320_S1x1x32x320_0_10_0_0 : ∀ a, (![0, 10, 0, 0] : Fin 4 → Nat) a + S1x1x32x320.size a ≤ S1x41x32x320.size a
  inb_S1x41x32x320_S1x1x32x320_0_11_0_0 : ∀ a, (![0, 11, 0, 0] : Fin 4 → Nat) a + S1x1x32x320.size a ≤ S1x41x32x320.size a
  inb_S1x41x32x320_S1x1x32x320_0_12_0_0 : ∀ a, (![0, 12, 0, 0] : Fin 4 → Nat) a + S1x1x32x320.size a ≤ S1x41x32x320.size a
  inb_S1x41x32x320_S1x1x32x320_0_13_0_0 : ∀ a, (![0, 13, 0, 0] : Fin 4 → Nat) a + S1x1x32x320.size a ≤ S1x41x32x320.size a
  inb_S1x41x32x320_S1x1x32x320_0_14_0_0 : ∀ a, (![0, 14, 0, 0] : Fin 4 → Nat) a + S1x1x32x320.size a ≤ S1x41x32x320.size a
  inb_S1x41x32x320_S1x1x32x320_0_15_0_0 : ∀ a, (![0, 15, 0, 0] : Fin 4 → Nat) a + S1x1x32x320.size a ≤ S1x41x32x320.size a
  inb_S1x41x32x320_S1x1x32x320_0_16_0_0 : ∀ a, (![0, 16, 0, 0] : Fin 4 → Nat) a + S1x1x32x320.size a ≤ S1x41x32x320.size a
  inb_S1x41x32x320_S1x1x32x320_0_17_0_0 : ∀ a, (![0, 17, 0, 0] : Fin 4 → Nat) a + S1x1x32x320.size a ≤ S1x41x32x320.size a
  inb_S1x41x32x320_S1x1x32x320_0_18_0_0 : ∀ a, (![0, 18, 0, 0] : Fin 4 → Nat) a + S1x1x32x320.size a ≤ S1x41x32x320.size a
  inb_S1x41x32x320_S1x1x32x320_0_19_0_0 : ∀ a, (![0, 19, 0, 0] : Fin 4 → Nat) a + S1x1x32x320.size a ≤ S1x41x32x320.size a
  inb_S1x41x32x320_S1x1x32x320_0_20_0_0 : ∀ a, (![0, 20, 0, 0] : Fin 4 → Nat) a + S1x1x32x320.size a ≤ S1x41x32x320.size a
  inb_S1x41x32x320_S1x1x32x320_0_21_0_0 : ∀ a, (![0, 21, 0, 0] : Fin 4 → Nat) a + S1x1x32x320.size a ≤ S1x41x32x320.size a
  inb_S1x41x32x320_S1x1x32x320_0_22_0_0 : ∀ a, (![0, 22, 0, 0] : Fin 4 → Nat) a + S1x1x32x320.size a ≤ S1x41x32x320.size a
  inb_S1x41x32x320_S1x1x32x320_0_23_0_0 : ∀ a, (![0, 23, 0, 0] : Fin 4 → Nat) a + S1x1x32x320.size a ≤ S1x41x32x320.size a
  inb_S1x41x32x320_S1x1x32x320_0_24_0_0 : ∀ a, (![0, 24, 0, 0] : Fin 4 → Nat) a + S1x1x32x320.size a ≤ S1x41x32x320.size a
  inb_S1x41x32x320_S1x1x32x320_0_25_0_0 : ∀ a, (![0, 25, 0, 0] : Fin 4 → Nat) a + S1x1x32x320.size a ≤ S1x41x32x320.size a
  inb_S1x41x32x320_S1x1x32x320_0_26_0_0 : ∀ a, (![0, 26, 0, 0] : Fin 4 → Nat) a + S1x1x32x320.size a ≤ S1x41x32x320.size a
  inb_S1x41x32x320_S1x1x32x320_0_27_0_0 : ∀ a, (![0, 27, 0, 0] : Fin 4 → Nat) a + S1x1x32x320.size a ≤ S1x41x32x320.size a
  inb_S1x41x32x320_S1x1x32x320_0_28_0_0 : ∀ a, (![0, 28, 0, 0] : Fin 4 → Nat) a + S1x1x32x320.size a ≤ S1x41x32x320.size a
  inb_S1x41x32x320_S1x1x32x320_0_29_0_0 : ∀ a, (![0, 29, 0, 0] : Fin 4 → Nat) a + S1x1x32x320.size a ≤ S1x41x32x320.size a
  inb_S1x41x32x320_S1x1x32x320_0_30_0_0 : ∀ a, (![0, 30, 0, 0] : Fin 4 → Nat) a + S1x1x32x320.size a ≤ S1x41x32x320.size a
  inb_S1x41x32x320_S1x1x32x320_0_31_0_0 : ∀ a, (![0, 31, 0, 0] : Fin 4 → Nat) a + S1x1x32x320.size a ≤ S1x41x32x320.size a
  inb_S1x41x32x320_S1x1x32x320_0_32_0_0 : ∀ a, (![0, 32, 0, 0] : Fin 4 → Nat) a + S1x1x32x320.size a ≤ S1x41x32x320.size a
  inb_S1x41x32x320_S1x1x32x320_0_33_0_0 : ∀ a, (![0, 33, 0, 0] : Fin 4 → Nat) a + S1x1x32x320.size a ≤ S1x41x32x320.size a
  inb_S1x41x32x320_S1x1x32x320_0_34_0_0 : ∀ a, (![0, 34, 0, 0] : Fin 4 → Nat) a + S1x1x32x320.size a ≤ S1x41x32x320.size a
  inb_S1x41x32x320_S1x1x32x320_0_35_0_0 : ∀ a, (![0, 35, 0, 0] : Fin 4 → Nat) a + S1x1x32x320.size a ≤ S1x41x32x320.size a
  inb_S1x41x32x320_S1x1x32x320_0_36_0_0 : ∀ a, (![0, 36, 0, 0] : Fin 4 → Nat) a + S1x1x32x320.size a ≤ S1x41x32x320.size a
  inb_S1x41x32x320_S1x1x32x320_0_37_0_0 : ∀ a, (![0, 37, 0, 0] : Fin 4 → Nat) a + S1x1x32x320.size a ≤ S1x41x32x320.size a
  inb_S1x41x32x320_S1x1x32x320_0_38_0_0 : ∀ a, (![0, 38, 0, 0] : Fin 4 → Nat) a + S1x1x32x320.size a ≤ S1x41x32x320.size a
  inb_S1x41x32x320_S1x1x32x320_0_39_0_0 : ∀ a, (![0, 39, 0, 0] : Fin 4 → Nat) a + S1x1x32x320.size a ≤ S1x41x32x320.size a
  inb_S1x41x32x320_S1x1x32x320_0_40_0_0 : ∀ a, (![0, 40, 0, 0] : Fin 4 → Nat) a + S1x1x32x320.size a ≤ S1x41x32x320.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x320.size a ≤ S4x128x160x320.size a
  hwx0_0 : ∀ i : grid0.Coords, EltTy.bits .f32 = 32 ∨ (Rect.block (s := S4x128x160x320) S1x128x32x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32x320.size a ≤ S4x128x160x320.size a
  hwx0_1 : ∀ i : grid0.Coords, EltTy.bits .f32 = 32 ∨ (Rect.block (s := S4x128x160x320) S1x128x32x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x41x32x320.size a ≤ S4x41x160x320.size a
  hwx0_2 : ∀ i : grid0.Coords, EltTy.bits .f32 = 32 ∨ (Rect.block (s := S4x41x160x320) S1x41x32x320.size (cc0_transform_2 i) (hinb0_2 i)).WholeWords (EltTy.packing .f32)

variable [Facts₀]

abbrev win0_0 : Pipeline.Window sig grid0 :=
  Pipeline.Window.ofSpec (Memref.whole main_arg0) S1x128x32x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x32x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x41x32x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x160x320 : Shape := ⟨4, ![4, 128, 160, 320]⟩
abbrev S_ : Shape := ⟨0, ![]⟩
abbrev S4x128x160x360 : Shape := ⟨4, ![4, 128, 160, 360]⟩
abbrev S4x160x320 : Shape := ⟨3, ![4, 160, 320]⟩
abbrev S4x1x160x320 : Shape := ⟨4, ![4, 1, 160, 320]⟩
abbrev S4x16x160x320 : Shape := ⟨4, ![4, 16, 160, 320]⟩
abbrev S4x9x160x320 : Shape := ⟨4, ![4, 9, 160, 320]⟩
abbrev S4x41x160x320 : Shape := ⟨4, ![4, 41, 160, 320]⟩

abbrev nBuf : Space → Nat
  | .hbm => 378
  | .vmem => 0
  | .smem => 0
  | _ => 0

abbrev hbmTy0_0 (i : Nat) : BufTy := match i % 128 with
  | 0 => ⟨S4x128x160x320, .f32⟩
  | 1 => ⟨S4x128x160x320, .f32⟩
  | 2 => ⟨S_, .i32⟩
  | 3 => ⟨S_, .f32⟩
  | 4 => ⟨S4x128x160x360, .f32⟩
  | 5 => ⟨S_, .i32⟩
  | 6 => ⟨S_, .i32⟩
  | 7 => ⟨S_, .i32⟩
  | 8 => ⟨S_, .i32⟩
  | 9 => ⟨S4x128x160x320, .f32⟩
  | 10 => ⟨S4x128x160x320, .f32⟩
  | 11 => ⟨S_, .f32⟩
  | 12 => ⟨S4x160x320, .f32⟩
  | 13 => ⟨S_, .i32⟩
  | 14 => ⟨S_, .i32⟩
  | 15 => ⟨S_, .i32⟩
  | 16 => ⟨S_, .i32⟩
  | 17 => ⟨S4x128x160x320, .f32⟩
  | 18 => ⟨S4x128x160x320, .f32⟩
  | 19 => ⟨S_, .f32⟩
  | 20 => ⟨S4x160x320, .f32⟩
  | 21 => ⟨S_, .i32⟩
  | 22 => ⟨S_, .i32⟩
  | 23 => ⟨S_, .i32⟩
  | 24 => ⟨S_, .i32⟩
  | 25 => ⟨S4x128x160x320, .f32⟩
  | 26 => ⟨S4x128x160x320, .f32⟩
  | 27 => ⟨S_, .f32⟩
  | 28 => ⟨S4x160x320, .f32⟩
  | 29 => ⟨S_, .i32⟩
  | 30 => ⟨S_, .i32⟩
  | 31 => ⟨S_, .i32⟩
  | 32 => ⟨S_, .i32⟩
  | 33 => ⟨S4x128x160x320, .f32⟩
  | 34 => ⟨S4x128x160x320, .f32⟩
  | 35 => ⟨S_, .f32⟩
  | 36 => ⟨S4x160x320, .f32⟩
  | 37 => ⟨S_, .i32⟩
  | 38 => ⟨S_, .i32⟩
  | 39 => ⟨S_, .i32⟩
  | 40 => ⟨S_, .i32⟩
  | 41 => ⟨S4x128x160x320, .f32⟩
  | 42 => ⟨S4x128x160x320, .f32⟩
  | 43 => ⟨S_, .f32⟩
  | 44 => ⟨S4x160x320, .f32⟩
  | 45 => ⟨S_, .i32⟩
  | 46 => ⟨S_, .i32⟩
  | 47 => ⟨S_, .i32⟩
  | 48 => ⟨S_, .i32⟩
  | 49 => ⟨S4x128x160x320, .f32⟩
  | 50 => ⟨S4x128x160x320, .f32⟩
  | 51 => ⟨S_, .f32⟩
  | 52 => ⟨S4x160x320, .f32⟩
  | 53 => ⟨S_, .i32⟩
  | 54 => ⟨S_, .i32⟩
  | 55 => ⟨S_, .i32⟩
  | 56 => ⟨S_, .i32⟩
  | 57 => ⟨S4x128x160x320, .f32⟩
  | 58 => ⟨S4x128x160x320, .f32⟩
  | 59 => ⟨S_, .f32⟩
  | 60 => ⟨S4x160x320, .f32⟩
  | 61 => ⟨S_, .i32⟩
  | 62 => ⟨S_, .i32⟩
  | 63 => ⟨S_, .i32⟩
  | 64 => ⟨S_, .i32⟩
  | 65 => ⟨S4x128x160x320, .f32⟩
  | 66 => ⟨S4x128x160x320, .f32⟩
  | 67 => ⟨S_, .f32⟩
  | 68 => ⟨S4x160x320, .f32⟩
  | 69 => ⟨S_, .i32⟩
  | 70 => ⟨S_, .i32⟩
  | 71 => ⟨S_, .i32⟩
  | 72 => ⟨S_, .i32⟩
  | 73 => ⟨S4x128x160x320, .f32⟩
  | 74 => ⟨S4x128x160x320, .f32⟩
  | 75 => ⟨S_, .f32⟩
  | 76 => ⟨S4x160x320, .f32⟩
  | 77 => ⟨S_, .i32⟩
  | 78 => ⟨S_, .i32⟩
  | 79 => ⟨S_, .i32⟩
  | 80 => ⟨S_, .i32⟩
  | 81 => ⟨S4x128x160x320, .f32⟩
  | 82 => ⟨S4x128x160x320, .f32⟩
  | 83 => ⟨S_, .f32⟩
  | 84 => ⟨S4x160x320, .f32⟩
  | 85 => ⟨S_, .i32⟩
  | 86 => ⟨S_, .i32⟩
  | 87 => ⟨S_, .i32⟩
  | 88 => ⟨S_, .i32⟩
  | 89 => ⟨S4x128x160x320, .f32⟩
  | 90 => ⟨S4x128x160x320, .f32⟩
  | 91 => ⟨S_, .f32⟩
  | 92 => ⟨S4x160x320, .f32⟩
  | 93 => ⟨S_, .i32⟩
  | 94 => ⟨S_, .i32⟩
  | 95 => ⟨S_, .i32⟩
  | 96 => ⟨S_, .i32⟩
  | 97 => ⟨S4x128x160x320, .f32⟩
  | 98 => ⟨S4x128x160x320, .f32⟩
  | 99 => ⟨S_, .f32⟩
  | 100 => ⟨S4x160x320, .f32⟩
  | 101 => ⟨S_, .i32⟩
  | 102 => ⟨S_, .i32⟩
  | 103 => ⟨S_, .i32⟩
  | 104 => ⟨S_, .i32⟩
  | 105 => ⟨S4x128x160x320, .f32⟩
  | 106 => ⟨S4x128x160x320, .f32⟩
  | 107 => ⟨S_, .f32⟩
  | 108 => ⟨S4x160x320, .f32⟩
  | 109 => ⟨S_, .i32⟩
  | 110 => ⟨S_, .i32⟩
  | 111 => ⟨S_, .i32⟩
  | 112 => ⟨S_, .i32⟩
  | 113 => ⟨S4x128x160x320, .f32⟩
  | 114 => ⟨S4x128x160x320, .f32⟩
  | 115 => ⟨S_, .f32⟩
  | 116 => ⟨S4x160x320, .f32⟩
  | 117 => ⟨S_, .i32⟩
  | 118 => ⟨S_, .i32⟩
  | 119 => ⟨S_, .i32⟩
  | 120 => ⟨S_, .i32⟩
  | 121 => ⟨S4x128x160x320, .f32⟩
  | 122 => ⟨S4x128x160x320, .f32⟩
  | 123 => ⟨S_, .f32⟩
  | 124 => ⟨S4x160x320, .f32⟩
  | 125 => ⟨S_, .i32⟩
  | 126 => ⟨S_, .i32⟩
  | 127 => ⟨S_, .i32⟩
  | _ => ⟨S4x128x160x320, .f32⟩

abbrev hbmTy0_1 (i : Nat) : BufTy := match i % 128 with
  | 0 => ⟨S_, .i32⟩
  | 1 => ⟨S4x128x160x320, .f32⟩
  | 2 => ⟨S4x128x160x320, .f32⟩
  | 3 => ⟨S_, .f32⟩
  | 4 => ⟨S4x160x320, .f32⟩
  | 5 => ⟨S_, .i32⟩
  | 6 => ⟨S_, .i32⟩
  | 7 => ⟨S_, .i32⟩
  | 8 => ⟨S_, .i32⟩
  | 9 => ⟨S4x128x160x320, .f32⟩
  | 10 => ⟨S4x128x160x320, .f32⟩
  | 11 => ⟨S_, .f32⟩
  | 12 => ⟨S4x160x320, .f32⟩
  | 13 => ⟨S_, .i32⟩
  | 14 => ⟨S_, .i32⟩
  | 15 => ⟨S_, .i32⟩
  | 16 => ⟨S_, .i32⟩
  | 17 => ⟨S4x128x160x320, .f32⟩
  | 18 => ⟨S4x128x160x320, .f32⟩
  | 19 => ⟨S_, .f32⟩
  | 20 => ⟨S4x160x320, .f32⟩
  | 21 => ⟨S_, .i32⟩
  | 22 => ⟨S_, .i32⟩
  | 23 => ⟨S_, .i32⟩
  | 24 => ⟨S_, .i32⟩
  | 25 => ⟨S4x128x160x320, .f32⟩
  | 26 => ⟨S4x128x160x320, .f32⟩
  | 27 => ⟨S_, .f32⟩
  | 28 => ⟨S4x160x320, .f32⟩
  | 29 => ⟨S_, .i32⟩
  | 30 => ⟨S_, .i32⟩
  | 31 => ⟨S_, .i32⟩
  | 32 => ⟨S_, .i32⟩
  | 33 => ⟨S4x128x160x320, .f32⟩
  | 34 => ⟨S4x128x160x320, .f32⟩
  | 35 => ⟨S_, .f32⟩
  | 36 => ⟨S4x160x320, .f32⟩
  | 37 => ⟨S_, .i32⟩
  | 38 => ⟨S_, .i32⟩
  | 39 => ⟨S_, .i32⟩
  | 40 => ⟨S_, .i32⟩
  | 41 => ⟨S4x128x160x320, .f32⟩
  | 42 => ⟨S4x128x160x320, .f32⟩
  | 43 => ⟨S_, .f32⟩
  | 44 => ⟨S4x160x320, .f32⟩
  | 45 => ⟨S_, .i32⟩
  | 46 => ⟨S_, .i32⟩
  | 47 => ⟨S_, .i32⟩
  | 48 => ⟨S_, .i32⟩
  | 49 => ⟨S4x128x160x320, .f32⟩
  | 50 => ⟨S4x128x160x320, .f32⟩
  | 51 => ⟨S_, .f32⟩
  | 52 => ⟨S4x160x320, .f32⟩
  | 53 => ⟨S_, .i32⟩
  | 54 => ⟨S_, .i32⟩
  | 55 => ⟨S_, .i32⟩
  | 56 => ⟨S_, .i32⟩
  | 57 => ⟨S4x128x160x320, .f32⟩
  | 58 => ⟨S4x128x160x320, .f32⟩
  | 59 => ⟨S_, .f32⟩
  | 60 => ⟨S4x160x320, .f32⟩
  | 61 => ⟨S_, .i32⟩
  | 62 => ⟨S_, .i32⟩
  | 63 => ⟨S_, .i32⟩
  | 64 => ⟨S_, .i32⟩
  | 65 => ⟨S4x128x160x320, .f32⟩
  | 66 => ⟨S4x128x160x320, .f32⟩
  | 67 => ⟨S_, .f32⟩
  | 68 => ⟨S4x160x320, .f32⟩
  | 69 => ⟨S_, .i32⟩
  | 70 => ⟨S_, .i32⟩
  | 71 => ⟨S_, .i32⟩
  | 72 => ⟨S_, .i32⟩
  | 73 => ⟨S4x128x160x320, .f32⟩
  | 74 => ⟨S4x128x160x320, .f32⟩
  | 75 => ⟨S_, .f32⟩
  | 76 => ⟨S4x160x320, .f32⟩
  | 77 => ⟨S_, .i32⟩
  | 78 => ⟨S_, .i32⟩
  | 79 => ⟨S_, .i32⟩
  | 80 => ⟨S_, .i32⟩
  | 81 => ⟨S4x128x160x320, .f32⟩
  | 82 => ⟨S4x128x160x320, .f32⟩
  | 83 => ⟨S_, .f32⟩
  | 84 => ⟨S4x160x320, .f32⟩
  | 85 => ⟨S_, .i32⟩
  | 86 => ⟨S_, .i32⟩
  | 87 => ⟨S_, .i32⟩
  | 88 => ⟨S_, .i32⟩
  | 89 => ⟨S4x128x160x320, .f32⟩
  | 90 => ⟨S4x128x160x320, .f32⟩
  | 91 => ⟨S_, .f32⟩
  | 92 => ⟨S4x160x320, .f32⟩
  | 93 => ⟨S_, .i32⟩
  | 94 => ⟨S_, .i32⟩
  | 95 => ⟨S_, .i32⟩
  | 96 => ⟨S_, .i32⟩
  | 97 => ⟨S4x128x160x320, .f32⟩
  | 98 => ⟨S4x128x160x320, .f32⟩
  | 99 => ⟨S_, .f32⟩
  | 100 => ⟨S4x160x320, .f32⟩
  | 101 => ⟨S_, .i32⟩
  | 102 => ⟨S_, .i32⟩
  | 103 => ⟨S_, .i32⟩
  | 104 => ⟨S_, .i32⟩
  | 105 => ⟨S4x128x160x320, .f32⟩
  | 106 => ⟨S4x128x160x320, .f32⟩
  | 107 => ⟨S_, .f32⟩
  | 108 => ⟨S4x160x320, .f32⟩
  | 109 => ⟨S_, .i32⟩
  | 110 => ⟨S_, .i32⟩
  | 111 => ⟨S_, .i32⟩
  | 112 => ⟨S_, .i32⟩
  | 113 => ⟨S4x128x160x320, .f32⟩
  | 114 => ⟨S4x128x160x320, .f32⟩
  | 115 => ⟨S_, .f32⟩
  | 116 => ⟨S4x160x320, .f32⟩
  | 117 => ⟨S_, .i32⟩
  | 118 => ⟨S_, .i32⟩
  | 119 => ⟨S_, .i32⟩
  | 120 => ⟨S_, .i32⟩
  | 121 => ⟨S4x128x160x320, .f32⟩
  | 122 => ⟨S4x128x160x320, .f32⟩
  | 123 => ⟨S_, .f32⟩
  | 124 => ⟨S4x160x320, .f32⟩
  | 125 => ⟨S_, .i32⟩
  | 126 => ⟨S_, .i32⟩
  | 127 => ⟨S_, .i32⟩
  | _ => ⟨S4x128x160x320, .f32⟩

abbrev hbmTy0_2 (i : Nat) : BufTy := match i % 128 with
  | 0 => ⟨S_, .i32⟩
  | 1 => ⟨S4x128x160x320, .f32⟩
  | 2 => ⟨S4x128x160x320, .f32⟩
  | 3 => ⟨S_, .f32⟩
  | 4 => ⟨S4x160x320, .f32⟩
  | 5 => ⟨S_, .i32⟩
  | 6 => ⟨S_, .i32⟩
  | 7 => ⟨S_, .i32⟩
  | 8 => ⟨S_, .i32⟩
  | 9 => ⟨S4x128x160x320, .f32⟩
  | 10 => ⟨S4x128x160x320, .f32⟩
  | 11 => ⟨S_, .f32⟩
  | 12 => ⟨S4x160x320, .f32⟩
  | 13 => ⟨S_, .i32⟩
  | 14 => ⟨S_, .i32⟩
  | 15 => ⟨S_, .i32⟩
  | 16 => ⟨S_, .i32⟩
  | 17 => ⟨S4x128x160x320, .f32⟩
  | 18 => ⟨S4x128x160x320, .f32⟩
  | 19 => ⟨S_, .f32⟩
  | 20 => ⟨S4x160x320, .f32⟩
  | 21 => ⟨S_, .i32⟩
  | 22 => ⟨S_, .i32⟩
  | 23 => ⟨S_, .i32⟩
  | 24 => ⟨S_, .i32⟩
  | 25 => ⟨S4x128x160x320, .f32⟩
  | 26 => ⟨S4x128x160x320, .f32⟩
  | 27 => ⟨S_, .f32⟩
  | 28 => ⟨S4x160x320, .f32⟩
  | 29 => ⟨S_, .i32⟩
  | 30 => ⟨S_, .i32⟩
  | 31 => ⟨S_, .i32⟩
  | 32 => ⟨S_, .i32⟩
  | 33 => ⟨S4x128x160x320, .f32⟩
  | 34 => ⟨S4x128x160x320, .f32⟩
  | 35 => ⟨S_, .f32⟩
  | 36 => ⟨S4x160x320, .f32⟩
  | 37 => ⟨S_, .i32⟩
  | 38 => ⟨S_, .i32⟩
  | 39 => ⟨S_, .i32⟩
  | 40 => ⟨S_, .i32⟩
  | 41 => ⟨S4x128x160x320, .f32⟩
  | 42 => ⟨S4x128x160x320, .f32⟩
  | 43 => ⟨S_, .f32⟩
  | 44 => ⟨S4x160x320, .f32⟩
  | 45 => ⟨S_, .i32⟩
  | 46 => ⟨S_, .i32⟩
  | 47 => ⟨S_, .i32⟩
  | 48 => ⟨S_, .i32⟩
  | 49 => ⟨S4x128x160x320, .f32⟩
  | 50 => ⟨S4x128x160x320, .f32⟩
  | 51 => ⟨S_, .f32⟩
  | 52 => ⟨S4x160x320, .f32⟩
  | 53 => ⟨S_, .i32⟩
  | 54 => ⟨S_, .i32⟩
  | 55 => ⟨S_, .i32⟩
  | 56 => ⟨S_, .i32⟩
  | 57 => ⟨S4x128x160x320, .f32⟩
  | 58 => ⟨S4x128x160x320, .f32⟩
  | 59 => ⟨S_, .f32⟩
  | 60 => ⟨S4x160x320, .f32⟩
  | 61 => ⟨S_, .i32⟩
  | 62 => ⟨S_, .i32⟩
  | 63 => ⟨S_, .i32⟩
  | 64 => ⟨S_, .i32⟩
  | 65 => ⟨S4x128x160x320, .f32⟩
  | 66 => ⟨S4x128x160x320, .f32⟩
  | 67 => ⟨S_, .f32⟩
  | 68 => ⟨S4x160x320, .f32⟩
  | 69 => ⟨S_, .i32⟩
  | 70 => ⟨S_, .i32⟩
  | 71 => ⟨S_, .i32⟩
  | 72 => ⟨S_, .i32⟩
  | 73 => ⟨S4x128x160x320, .f32⟩
  | 74 => ⟨S4x128x160x320, .f32⟩
  | 75 => ⟨S_, .f32⟩
  | 76 => ⟨S4x160x320, .f32⟩
  | 77 => ⟨S4x1x160x320, .f32⟩
  | 78 => ⟨S4x1x160x320, .f32⟩
  | 79 => ⟨S4x1x160x320, .f32⟩
  | 80 => ⟨S4x1x160x320, .f32⟩
  | 81 => ⟨S4x1x160x320, .f32⟩
  | 82 => ⟨S4x1x160x320, .f32⟩
  | 83 => ⟨S4x1x160x320, .f32⟩
  | 84 => ⟨S4x1x160x320, .f32⟩
  | 85 => ⟨S4x1x160x320, .f32⟩
  | 86 => ⟨S4x1x160x320, .f32⟩
  | 87 => ⟨S4x1x160x320, .f32⟩
  | 88 => ⟨S4x1x160x320, .f32⟩
  | 89 => ⟨S4x1x160x320, .f32⟩
  | 90 => ⟨S4x1x160x320, .f32⟩
  | 91 => ⟨S4x1x160x320, .f32⟩
  | 92 => ⟨S4x1x160x320, .f32⟩
  | 93 => ⟨S4x1x160x320, .f32⟩
  | 94 => ⟨S4x1x160x320, .f32⟩
  | 95 => ⟨S4x1x160x320, .f32⟩
  | 96 => ⟨S4x1x160x320, .f32⟩
  | 97 => ⟨S4x1x160x320, .f32⟩
  | 98 => ⟨S4x1x160x320, .f32⟩
  | 99 => ⟨S4x1x160x320, .f32⟩
  | 100 => ⟨S4x1x160x320, .f32⟩
  | 101 => ⟨S4x1x160x320, .f32⟩
  | 102 => ⟨S4x1x160x320, .f32⟩
  | 103 => ⟨S4x1x160x320, .f32⟩
  | 104 => ⟨S4x1x160x320, .f32⟩
  | 105 => ⟨S4x1x160x320, .f32⟩
  | 106 => ⟨S4x1x160x320, .f32⟩
  | 107 => ⟨S4x1x160x320, .f32⟩
  | 108 => ⟨S4x1x160x320, .f32⟩
  | 109 => ⟨S4x1x160x320, .f32⟩
  | 110 => ⟨S4x1x160x320, .f32⟩
  | 111 => ⟨S4x1x160x320, .f32⟩
  | 112 => ⟨S4x1x160x320, .f32⟩
  | 113 => ⟨S4x1x160x320, .f32⟩
  | 114 => ⟨S4x1x160x320, .f32⟩
  | 115 => ⟨S4x1x160x320, .f32⟩
  | 116 => ⟨S4x1x160x320, .f32⟩
  | 117 => ⟨S4x1x160x320, .f32⟩
  | 118 => ⟨S4x16x160x320, .f32⟩
  | 119 => ⟨S4x16x160x320, .f32⟩
  | 120 => ⟨S4x9x160x320, .f32⟩
  | 121 => ⟨S4x41x160x320, .f32⟩
  | _ => ⟨S4x128x160x320, .f32⟩

abbrev hbmTy (i : Nat) : BufTy := match i / 128 with
  | 0 => hbmTy0_0 i
  | 1 => hbmTy0_1 i
  | 2 => hbmTy0_2 i
  | _ => ⟨S4x128x160x320, .f32⟩

abbrev bufTy : (tb : Table) → Fin (tcTables nBuf tb) → BufTy
  | .hbm, ⟨i, _⟩ => hbmTy i
  | _, _ => ⟨S4x128x160x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_c_7 : Ref sig .tc := ⟨.hbm, 16, rfl⟩
abbrev main_v4 : Ref sig .tc := ⟨.hbm, 17, rfl⟩
abbrev main_v5 : Ref sig .tc := ⟨.hbm, 18, rfl⟩
abbrev main_cst_8 : Ref sig .tc := ⟨.hbm, 19, rfl⟩
abbrev main_v6 : Ref sig .tc := ⟨.hbm, 20, rfl⟩
abbrev main_c_9 : Ref sig .tc := ⟨.hbm, 21, rfl⟩
abbrev main_c_10 : Ref sig .tc := ⟨.hbm, 22, rfl⟩
abbrev main_c_11 : Ref sig .tc := ⟨.hbm, 23, rfl⟩
abbrev main_c_12 : Ref sig .tc := ⟨.hbm, 24, rfl⟩
abbrev main_v7 : Ref sig .tc := ⟨.hbm, 25, rfl⟩
abbrev main_v8 : Ref sig .tc := ⟨.hbm, 26, rfl⟩
abbrev main_cst_13 : Ref sig .tc := ⟨.hbm, 27, rfl⟩
abbrev main_v9 : Ref sig .tc := ⟨.hbm, 28, rfl⟩
abbrev main_c_14 : Ref sig .tc := ⟨.hbm, 29, rfl⟩
abbrev main_c_15 : Ref sig .tc := ⟨.hbm, 30, rfl⟩
abbrev main_c_16 : Ref sig .tc := ⟨.hbm, 31, rfl⟩
abbrev main_c_17 : Ref sig .tc := ⟨.hbm, 32, rfl⟩
abbrev main_v10 : Ref sig .tc := ⟨.hbm, 33, rfl⟩
abbrev main_v11 : Ref sig .tc := ⟨.hbm, 34, rfl⟩
abbrev main_cst_18 : Ref sig .tc := ⟨.hbm, 35, rfl⟩
abbrev main_v12 : Ref sig .tc := ⟨.hbm, 36, rfl⟩
abbrev main_c_19 : Ref sig .tc := ⟨.hbm, 37, rfl⟩
abbrev main_c_20 : Ref sig .tc := ⟨.hbm, 38, rfl⟩
abbrev main_c_21 : Ref sig .tc := ⟨.hbm, 39, rfl⟩
abbrev main_c_22 : Ref sig .tc := ⟨.hbm, 40, rfl⟩
abbrev main_v13 : Ref sig .tc := ⟨.hbm, 41, rfl⟩
abbrev main_v14 : Ref sig .tc := ⟨.hbm, 42, rfl⟩
abbrev main_cst_23 : Ref sig .tc := ⟨.hbm, 43, rfl⟩
abbrev main_v15 : Ref sig .tc := ⟨.hbm, 44, rfl⟩
abbrev main_c_24 : Ref sig .tc := ⟨.hbm, 45, rfl⟩
abbrev main_c_25 : Ref sig .tc := ⟨.hbm, 46, rfl⟩
abbrev main_c_26 : Ref sig .tc := ⟨.hbm, 47, rfl⟩
abbrev main_c_27 : Ref sig .tc := ⟨.hbm, 48, rfl⟩
abbrev main_v16 : Ref sig .tc := ⟨.hbm, 49, rfl⟩
abbrev main_v17 : Ref sig .tc := ⟨.hbm, 50, rfl⟩
abbrev main_cst_28 : Ref sig .tc := ⟨.hbm, 51, rfl⟩
abbrev main_v18 : Ref sig .tc := ⟨.hbm, 52, rfl⟩
abbrev main_c_29 : Ref sig .tc := ⟨.hbm, 53, rfl⟩
abbrev main_c_30 : Ref sig .tc := ⟨.hbm, 54, rfl⟩
abbrev main_c_31 : Ref sig .tc := ⟨.hbm, 55, rfl⟩
abbrev main_c_32 : Ref sig .tc := ⟨.hbm, 56, rfl⟩
abbrev main_v19 : Ref sig .tc := ⟨.hbm, 57, rfl⟩
abbrev main_v20 : Ref sig .tc := ⟨.hbm, 58, rfl⟩
abbrev main_cst_33 : Ref sig .tc := ⟨.hbm, 59, rfl⟩
abbrev main_v21 : Ref sig .tc := ⟨.hbm, 60, rfl⟩
abbrev main_c_34 : Ref sig .tc := ⟨.hbm, 61, rfl⟩
abbrev main_c_35 : Ref sig .tc := ⟨.hbm, 62, rfl⟩
abbrev main_c_36 : Ref sig .tc := ⟨.hbm, 63, rfl⟩
abbrev main_c_37 : Ref sig .tc := ⟨.hbm, 64, rfl⟩
abbrev main_v22 : Ref sig .tc := ⟨.hbm, 65, rfl⟩
abbrev main_v23 : Ref sig .tc := ⟨.hbm, 66, rfl⟩
abbrev main_cst_38 : Ref sig .tc := ⟨.hbm, 67, rfl⟩
abbrev main_v24 : Ref sig .tc := ⟨.hbm, 68, rfl⟩
abbrev main_c_39 : Ref sig .tc := ⟨.hbm, 69, rfl⟩
abbrev main_c_40 : Ref sig .tc := ⟨.hbm, 70, rfl⟩
abbrev main_c_41 : Ref sig .tc := ⟨.hbm, 71, rfl⟩
abbrev main_c_42 : Ref sig .tc := ⟨.hbm, 72, rfl⟩
abbrev main_v25 : Ref sig .tc := ⟨.hbm, 73, rfl⟩
abbrev main_v26 : Ref sig .tc := ⟨.hbm, 74, rfl⟩
abbrev main_cst_43 : Ref sig .tc := ⟨.hbm, 75, rfl⟩
abbrev main_v27 : Ref sig .tc := ⟨.hbm, 76, rfl⟩
abbrev main_c_44 : Ref sig .tc := ⟨.hbm, 77, rfl⟩
abbrev main_c_45 : Ref sig .tc := ⟨.hbm, 78, rfl⟩
abbrev main_c_46 : Ref sig .tc := ⟨.hbm, 79, rfl⟩
abbrev main_c_47 : Ref sig .tc := ⟨.hbm, 80, rfl⟩
abbrev main_v28 : Ref sig .tc := ⟨.hbm, 81, rfl⟩
abbrev main_v29 : Ref sig .tc := ⟨.hbm, 82, rfl⟩
abbrev main_cst_48 : Ref sig .tc := ⟨.hbm, 83, rfl⟩
abbrev main_v30 : Ref sig .tc := ⟨.hbm, 84, rfl⟩
abbrev main_c_49 : Ref sig .tc := ⟨.hbm, 85, rfl⟩
abbrev main_c_50 : Ref sig .tc := ⟨.hbm, 86, rfl⟩
abbrev main_c_51 : Ref sig .tc := ⟨.hbm, 87, rfl⟩
abbrev main_c_52 : Ref sig .tc := ⟨.hbm, 88, rfl⟩
abbrev main_v31 : Ref sig .tc := ⟨.hbm, 89, rfl⟩
abbrev main_v32 : Ref sig .tc := ⟨.hbm, 90, rfl⟩
abbrev main_cst_53 : Ref sig .tc := ⟨.hbm, 91, rfl⟩
abbrev main_v33 : Ref sig .tc := ⟨.hbm, 92, rfl⟩
abbrev main_c_54 : Ref sig .tc := ⟨.hbm, 93, rfl⟩
abbrev main_c_55 : Ref sig .tc := ⟨.hbm, 94, rfl⟩
abbrev main_c_56 : Ref sig .tc := ⟨.hbm, 95, rfl⟩
abbrev main_c_57 : Ref sig .tc := ⟨.hbm, 96, rfl⟩
abbrev main_v34 : Ref sig .tc := ⟨.hbm, 97, rfl⟩
abbrev main_v35 : Ref sig .tc := ⟨.hbm, 98, rfl⟩
abbrev main_cst_58 : Ref sig .tc := ⟨.hbm, 99, rfl⟩
abbrev main_v36 : Ref sig .tc := ⟨.hbm, 100, rfl⟩
abbrev main_c_59 : Ref sig .tc := ⟨.hbm, 101, rfl⟩
abbrev main_c_60 : Ref sig .tc := ⟨.hbm, 102, rfl⟩
abbrev main_c_61 : Ref sig .tc := ⟨.hbm, 103, rfl⟩
abbrev main_c_62 : Ref sig .tc := ⟨.hbm, 104, rfl⟩
abbrev main_v37 : Ref sig .tc := ⟨.hbm, 105, rfl⟩
abbrev main_v38 : Ref sig .tc := ⟨.hbm, 106, rfl⟩
abbrev main_cst_63 : Ref sig .tc := ⟨.hbm, 107, rfl⟩
abbrev main_v39 : Ref sig .tc := ⟨.hbm, 108, rfl⟩
abbrev main_c_64 : Ref sig .tc := ⟨.hbm, 109, rfl⟩
abbrev main_c_65 : Ref sig .tc := ⟨.hbm, 110, rfl⟩
abbrev main_c_66 : Ref sig .tc := ⟨.hbm, 111, rfl⟩
abbrev main_c_67 : Ref sig .tc := ⟨.hbm, 112, rfl⟩
abbrev main_v40 : Ref sig .tc := ⟨.hbm, 113, rfl⟩
abbrev main_v41 : Ref sig .tc := ⟨.hbm, 114, rfl⟩
abbrev main_cst_68 : Ref sig .tc := ⟨.hbm, 115, rfl⟩
abbrev main_v42 : Ref sig .tc := ⟨.hbm, 116, rfl⟩
abbrev main_c_69 : Ref sig .tc := ⟨.hbm, 117, rfl⟩
abbrev main_c_70 : Ref sig .tc := ⟨.hbm, 118, rfl⟩
abbrev main_c_71 : Ref sig .tc := ⟨.hbm, 119, rfl⟩
abbrev main_c_72 : Ref sig .tc := ⟨.hbm, 120, rfl⟩
abbrev main_v43 : Ref sig .tc := ⟨.hbm, 121, rfl⟩
abbrev main_v44 : Ref sig .tc := ⟨.hbm, 122, rfl⟩
abbrev main_cst_73 : Ref sig .tc := ⟨.hbm, 123, rfl⟩
abbrev main_v45 : Ref sig .tc := ⟨.hbm, 124, rfl⟩
abbrev main_c_74 : Ref sig .tc := ⟨.hbm, 125, rfl⟩
abbrev main_c_75 : Ref sig .tc := ⟨.hbm, 126, rfl⟩
abbrev main_c_76 : Ref sig .tc := ⟨.hbm, 127, rfl⟩
abbrev main_c_77 : Ref sig .tc := ⟨.hbm, 128, rfl⟩
abbrev main_v46 : Ref sig .tc := ⟨.hbm, 129, rfl⟩
abbrev main_v47 : Ref sig .tc := ⟨.hbm, 130, rfl⟩
abbrev main_cst_78 : Ref sig .tc := ⟨.hbm, 131, rfl⟩
abbrev main_v48 : Ref sig .tc := ⟨.hbm, 132, rfl⟩
abbrev main_c_79 : Ref sig .tc := ⟨.hbm, 133, rfl⟩
abbrev main_c_80 : Ref sig .tc := ⟨.hbm, 134, rfl⟩
abbrev main_c_81 : Ref sig .tc := ⟨.hbm, 135, rfl⟩
abbrev main_c_82 : Ref sig .tc := ⟨.hbm, 136, rfl⟩
abbrev main_v49 : Ref sig .tc := ⟨.hbm, 137, rfl⟩
abbrev main_v50 : Ref sig .tc := ⟨.hbm, 138, rfl⟩
abbrev main_cst_83 : Ref sig .tc := ⟨.hbm, 139, rfl⟩
abbrev main_v51 : Ref sig .tc := ⟨.hbm, 140, rfl⟩
abbrev main_c_84 : Ref sig .tc := ⟨.hbm, 141, rfl⟩
abbrev main_c_85 : Ref sig .tc := ⟨.hbm, 142, rfl⟩
abbrev main_c_86 : Ref sig .tc := ⟨.hbm, 143, rfl⟩
abbrev main_c_87 : Ref sig .tc := ⟨.hbm, 144, rfl⟩
abbrev main_v52 : Ref sig .tc := ⟨.hbm, 145, rfl⟩
abbrev main_v53 : Ref sig .tc := ⟨.hbm, 146, rfl⟩
abbrev main_cst_88 : Ref sig .tc := ⟨.hbm, 147, rfl⟩
abbrev main_v54 : Ref sig .tc := ⟨.hbm, 148, rfl⟩
abbrev main_c_89 : Ref sig .tc := ⟨.hbm, 149, rfl⟩
abbrev main_c_90 : Ref sig .tc := ⟨.hbm, 150, rfl⟩
abbrev main_c_91 : Ref sig .tc := ⟨.hbm, 151, rfl⟩
abbrev main_c_92 : Ref sig .tc := ⟨.hbm, 152, rfl⟩
abbrev main_v55 : Ref sig .tc := ⟨.hbm, 153, rfl⟩
abbrev main_v56 : Ref sig .tc := ⟨.hbm, 154, rfl⟩
abbrev main_cst_93 : Ref sig .tc := ⟨.hbm, 155, rfl⟩
abbrev main_v57 : Ref sig .tc := ⟨.hbm, 156, rfl⟩
abbrev main_c_94 : Ref sig .tc := ⟨.hbm, 157, rfl⟩
abbrev main_c_95 : Ref sig .tc := ⟨.hbm, 158, rfl⟩
abbrev main_c_96 : Ref sig .tc := ⟨.hbm, 159, rfl⟩
abbrev main_c_97 : Ref sig .tc := ⟨.hbm, 160, rfl⟩
abbrev main_v58 : Ref sig .tc := ⟨.hbm, 161, rfl⟩
abbrev main_v59 : Ref sig .tc := ⟨.hbm, 162, rfl⟩
abbrev main_cst_98 : Ref sig .tc := ⟨.hbm, 163, rfl⟩
abbrev main_v60 : Ref sig .tc := ⟨.hbm, 164, rfl⟩
abbrev main_c_99 : Ref sig .tc := ⟨.hbm, 165, rfl⟩
abbrev main_c_100 : Ref sig .tc := ⟨.hbm, 166, rfl⟩
abbrev main_c_101 : Ref sig .tc := ⟨.hbm, 167, rfl⟩
abbrev main_c_102 : Ref sig .tc := ⟨.hbm, 168, rfl⟩
abbrev main_v61 : Ref sig .tc := ⟨.hbm, 169, rfl⟩
abbrev main_v62 : Ref sig .tc := ⟨.hbm, 170, rfl⟩
abbrev main_cst_103 : Ref sig .tc := ⟨.hbm, 171, rfl⟩
abbrev main_v63 : Ref sig .tc := ⟨.hbm, 172, rfl⟩
abbrev main_c_104 : Ref sig .tc := ⟨.hbm, 173, rfl⟩
abbrev main_c_105 : Ref sig .tc := ⟨.hbm, 174, rfl⟩
abbrev main_c_106 : Ref sig .tc := ⟨.hbm, 175, rfl⟩
abbrev main_c_107 : Ref sig .tc := ⟨.hbm, 176, rfl⟩
abbrev main_v64 : Ref sig .tc := ⟨.hbm, 177, rfl⟩
abbrev main_v65 : Ref sig .tc := ⟨.hbm, 178, rfl⟩
abbrev main_cst_108 : Ref sig .tc := ⟨.hbm, 179, rfl⟩
abbrev main_v66 : Ref sig .tc := ⟨.hbm, 180, rfl⟩
abbrev main_c_109 : Ref sig .tc := ⟨.hbm, 181, rfl⟩
abbrev main_c_110 : Ref sig .tc := ⟨.hbm, 182, rfl⟩
abbrev main_c_111 : Ref sig .tc := ⟨.hbm, 183, rfl⟩
abbrev main_c_112 : Ref sig .tc := ⟨.hbm, 184, rfl⟩
abbrev main_v67 : Ref sig .tc := ⟨.hbm, 185, rfl⟩
abbrev main_v68 : Ref sig .tc := ⟨.hbm, 186, rfl⟩
abbrev main_cst_113 : Ref sig .tc := ⟨.hbm, 187, rfl⟩
abbrev main_v69 : Ref sig .tc := ⟨.hbm, 188, rfl⟩
abbrev main_c_114 : Ref sig .tc := ⟨.hbm, 189, rfl⟩
abbrev main_c_115 : Ref sig .tc := ⟨.hbm, 190, rfl⟩
abbrev main_c_116 : Ref sig .tc := ⟨.hbm, 191, rfl⟩
abbrev main_c_117 : Ref sig .tc := ⟨.hbm, 192, rfl⟩
abbrev main_v70 : Ref sig .tc := ⟨.hbm, 193, rfl⟩
abbrev main_v71 : Ref sig .tc := ⟨.hbm, 194, rfl⟩
abbrev main_cst_118 : Ref sig .tc := ⟨.hbm, 195, rfl⟩
abbrev main_v72 : Ref sig .tc := ⟨.hbm, 196, rfl⟩
abbrev main_c_119 : Ref sig .tc := ⟨.hbm, 197, rfl⟩
abbrev main_c_120 : Ref sig .tc := ⟨.hbm, 198, rfl⟩
abbrev main_c_121 : Ref sig .tc := ⟨.hbm, 199, rfl⟩
abbrev main_c_122 : Ref sig .tc := ⟨.hbm, 200, rfl⟩
abbrev main_v73 : Ref sig .tc := ⟨.hbm, 201, rfl⟩
abbrev main_v74 : Ref sig .tc := ⟨.hbm, 202, rfl⟩
abbrev main_cst_123 : Ref sig .tc := ⟨.hbm, 203, rfl⟩
abbrev main_v75 : Ref sig .tc := ⟨.hbm, 204, rfl⟩
abbrev main_c_124 : Ref sig .tc := ⟨.hbm, 205, rfl⟩
abbrev main_c_125 : Ref sig .tc := ⟨.hbm, 206, rfl⟩
abbrev main_c_126 : Ref sig .tc := ⟨.hbm, 207, rfl⟩
abbrev main_c_127 : Ref sig .tc := ⟨.hbm, 208, rfl⟩
abbrev main_v76 : Ref sig .tc := ⟨.hbm, 209, rfl⟩
abbrev main_v77 : Ref sig .tc := ⟨.hbm, 210, rfl⟩
abbrev main_cst_128 : Ref sig .tc := ⟨.hbm, 211, rfl⟩
abbrev main_v78 : Ref sig .tc := ⟨.hbm, 212, rfl⟩
abbrev main_c_129 : Ref sig .tc := ⟨.hbm, 213, rfl⟩
abbrev main_c_130 : Ref sig .tc := ⟨.hbm, 214, rfl⟩
abbrev main_c_131 : Ref sig .tc := ⟨.hbm, 215, rfl⟩
abbrev main_c_132 : Ref sig .tc := ⟨.hbm, 216, rfl⟩
abbrev main_v79 : Ref sig .tc := ⟨.hbm, 217, rfl⟩
abbrev main_v80 : Ref sig .tc := ⟨.hbm, 218, rfl⟩
abbrev main_cst_133 : Ref sig .tc := ⟨.hbm, 219, rfl⟩
abbrev main_v81 : Ref sig .tc := ⟨.hbm, 220, rfl⟩
abbrev main_c_134 : Ref sig .tc := ⟨.hbm, 221, rfl⟩
abbrev main_c_135 : Ref sig .tc := ⟨.hbm, 222, rfl⟩
abbrev main_c_136 : Ref sig .tc := ⟨.hbm, 223, rfl⟩
abbrev main_c_137 : Ref sig .tc := ⟨.hbm, 224, rfl⟩
abbrev main_v82 : Ref sig .tc := ⟨.hbm, 225, rfl⟩
abbrev main_v83 : Ref sig .tc := ⟨.hbm, 226, rfl⟩
abbrev main_cst_138 : Ref sig .tc := ⟨.hbm, 227, rfl⟩
abbrev main_v84 : Ref sig .tc := ⟨.hbm, 228, rfl⟩
abbrev main_c_139 : Ref sig .tc := ⟨.hbm, 229, rfl⟩
abbrev main_c_140 : Ref sig .tc := ⟨.hbm, 230, rfl⟩
abbrev main_c_141 : Ref sig .tc := ⟨.hbm, 231, rfl⟩
abbrev main_c_142 : Ref sig .tc := ⟨.hbm, 232, rfl⟩
abbrev main_v85 : Ref sig .tc := ⟨.hbm, 233, rfl⟩
abbrev main_v86 : Ref sig .tc := ⟨.hbm, 234, rfl⟩
abbrev main_cst_143 : Ref sig .tc := ⟨.hbm, 235, rfl⟩
abbrev main_v87 : Ref sig .tc := ⟨.hbm, 236, rfl⟩
abbrev main_c_144 : Ref sig .tc := ⟨.hbm, 237, rfl⟩
abbrev main_c_145 : Ref sig .tc := ⟨.hbm, 238, rfl⟩
abbrev main_c_146 : Ref sig .tc := ⟨.hbm, 239, rfl⟩
abbrev main_c_147 : Ref sig .tc := ⟨.hbm, 240, rfl⟩
abbrev main_v88 : Ref sig .tc := ⟨.hbm, 241, rfl⟩
abbrev main_v89 : Ref sig .tc := ⟨.hbm, 242, rfl⟩
abbrev main_cst_148 : Ref sig .tc := ⟨.hbm, 243, rfl⟩
abbrev main_v90 : Ref sig .tc := ⟨.hbm, 244, rfl⟩
abbrev main_c_149 : Ref sig .tc := ⟨.hbm, 245, rfl⟩
abbrev main_c_150 : Ref sig .tc := ⟨.hbm, 246, rfl⟩
abbrev main_c_151 : Ref sig .tc := ⟨.hbm, 247, rfl⟩
abbrev main_c_152 : Ref sig .tc := ⟨.hbm, 248, rfl⟩
abbrev main_v91 : Ref sig .tc := ⟨.hbm, 249, rfl⟩
abbrev main_v92 : Ref sig .tc := ⟨.hbm, 250, rfl⟩
abbrev main_cst_153 : Ref sig .tc := ⟨.hbm, 251, rfl⟩
abbrev main_v93 : Ref sig .tc := ⟨.hbm, 252, rfl⟩
abbrev main_c_154 : Ref sig .tc := ⟨.hbm, 253, rfl⟩
abbrev main_c_155 : Ref sig .tc := ⟨.hbm, 254, rfl⟩
abbrev main_c_156 : Ref sig .tc := ⟨.hbm, 255, rfl⟩
abbrev main_c_157 : Ref sig .tc := ⟨.hbm, 256, rfl⟩
abbrev main_v94 : Ref sig .tc := ⟨.hbm, 257, rfl⟩
abbrev main_v95 : Ref sig .tc := ⟨.hbm, 258, rfl⟩
abbrev main_cst_158 : Ref sig .tc := ⟨.hbm, 259, rfl⟩
abbrev main_v96 : Ref sig .tc := ⟨.hbm, 260, rfl⟩
abbrev main_c_159 : Ref sig .tc := ⟨.hbm, 261, rfl⟩
abbrev main_c_160 : Ref sig .tc := ⟨.hbm, 262, rfl⟩
abbrev main_c_161 : Ref sig .tc := ⟨.hbm, 263, rfl⟩
abbrev main_c_162 : Ref sig .tc := ⟨.hbm, 264, rfl⟩
abbrev main_v97 : Ref sig .tc := ⟨.hbm, 265, rfl⟩
abbrev main_v98 : Ref sig .tc := ⟨.hbm, 266, rfl⟩
abbrev main_cst_163 : Ref sig .tc := ⟨.hbm, 267, rfl⟩
abbrev main_v99 : Ref sig .tc := ⟨.hbm, 268, rfl⟩
abbrev main_c_164 : Ref sig .tc := ⟨.hbm, 269, rfl⟩
abbrev main_c_165 : Ref sig .tc := ⟨.hbm, 270, rfl⟩
abbrev main_c_166 : Ref sig .tc := ⟨.hbm, 271, rfl⟩
abbrev main_c_167 : Ref sig .tc := ⟨.hbm, 272, rfl⟩
abbrev main_v100 : Ref sig .tc := ⟨.hbm, 273, rfl⟩
abbrev main_v101 : Ref sig .tc := ⟨.hbm, 274, rfl⟩
abbrev main_cst_168 : Ref sig .tc := ⟨.hbm, 275, rfl⟩
abbrev main_v102 : Ref sig .tc := ⟨.hbm, 276, rfl⟩
abbrev main_c_169 : Ref sig .tc := ⟨.hbm, 277, rfl⟩
abbrev main_c_170 : Ref sig .tc := ⟨.hbm, 278, rfl⟩
abbrev main_c_171 : Ref sig .tc := ⟨.hbm, 279, rfl⟩
abbrev main_c_172 : Ref sig .tc := ⟨.hbm, 280, rfl⟩
abbrev main_v103 : Ref sig .tc := ⟨.hbm, 281, rfl⟩
abbrev main_v104 : Ref sig .tc := ⟨.hbm, 282, rfl⟩
abbrev main_cst_173 : Ref sig .tc := ⟨.hbm, 283, rfl⟩
abbrev main_v105 : Ref sig .tc := ⟨.hbm, 284, rfl⟩
abbrev main_c_174 : Ref sig .tc := ⟨.hbm, 285, rfl⟩
abbrev main_c_175 : Ref sig .tc := ⟨.hbm, 286, rfl⟩
abbrev main_c_176 : Ref sig .tc := ⟨.hbm, 287, rfl⟩
abbrev main_c_177 : Ref sig .tc := ⟨.hbm, 288, rfl⟩
abbrev main_v106 : Ref sig .tc := ⟨.hbm, 289, rfl⟩
abbrev main_v107 : Ref sig .tc := ⟨.hbm, 290, rfl⟩
abbrev main_cst_178 : Ref sig .tc := ⟨.hbm, 291, rfl⟩
abbrev main_v108 : Ref sig .tc := ⟨.hbm, 292, rfl⟩
abbrev main_c_179 : Ref sig .tc := ⟨.hbm, 293, rfl⟩
abbrev main_c_180 : Ref sig .tc := ⟨.hbm, 294, rfl⟩
abbrev main_c_181 : Ref sig .tc := ⟨.hbm, 295, rfl⟩
abbrev main_c_182 : Ref sig .tc := ⟨.hbm, 296, rfl⟩
abbrev main_v109 : Ref sig .tc := ⟨.hbm, 297, rfl⟩
abbrev main_v110 : Ref sig .tc := ⟨.hbm, 298, rfl⟩
abbrev main_cst_183 : Ref sig .tc := ⟨.hbm, 299, rfl⟩
abbrev main_v111 : Ref sig .tc := ⟨.hbm, 300, rfl⟩
abbrev main_c_184 : Ref sig .tc := ⟨.hbm, 301, rfl⟩
abbrev main_c_185 : Ref sig .tc := ⟨.hbm, 302, rfl⟩
abbrev main_c_186 : Ref sig .tc := ⟨.hbm, 303, rfl⟩
abbrev main_c_187 : Ref sig .tc := ⟨.hbm, 304, rfl⟩
abbrev main_v112 : Ref sig .tc := ⟨.hbm, 305, rfl⟩
abbrev main_v113 : Ref sig .tc := ⟨.hbm, 306, rfl⟩
abbrev main_cst_188 : Ref sig .tc := ⟨.hbm, 307, rfl⟩
abbrev main_v114 : Ref sig .tc := ⟨.hbm, 308, rfl⟩
abbrev main_c_189 : Ref sig .tc := ⟨.hbm, 309, rfl⟩
abbrev main_c_190 : Ref sig .tc := ⟨.hbm, 310, rfl⟩
abbrev main_c_191 : Ref sig .tc := ⟨.hbm, 311, rfl⟩
abbrev main_c_192 : Ref sig .tc := ⟨.hbm, 312, rfl⟩
abbrev main_v115 : Ref sig .tc := ⟨.hbm, 313, rfl⟩
abbrev main_v116 : Ref sig .tc := ⟨.hbm, 314, rfl⟩
abbrev main_cst_193 : Ref sig .tc := ⟨.hbm, 315, rfl⟩
abbrev main_v117 : Ref sig .tc := ⟨.hbm, 316, rfl⟩
abbrev main_c_194 : Ref sig .tc := ⟨.hbm, 317, rfl⟩
abbrev main_c_195 : Ref sig .tc := ⟨.hbm, 318, rfl⟩
abbrev main_c_196 : Ref sig .tc := ⟨.hbm, 319, rfl⟩
abbrev main_c_197 : Ref sig .tc := ⟨.hbm, 320, rfl⟩
abbrev main_v118 : Ref sig .tc := ⟨.hbm, 321, rfl⟩
abbrev main_v119 : Ref sig .tc := ⟨.hbm, 322, rfl⟩
abbrev main_cst_198 : Ref sig .tc := ⟨.hbm, 323, rfl⟩
abbrev main_v120 : Ref sig .tc := ⟨.hbm, 324, rfl⟩
abbrev main_c_199 : Ref sig .tc := ⟨.hbm, 325, rfl⟩
abbrev main_c_200 : Ref sig .tc := ⟨.hbm, 326, rfl⟩
abbrev main_c_201 : Ref sig .tc := ⟨.hbm, 327, rfl⟩
abbrev main_c_202 : Ref sig .tc := ⟨.hbm, 328, rfl⟩
abbrev main_v121 : Ref sig .tc := ⟨.hbm, 329, rfl⟩
abbrev main_v122 : Ref sig .tc := ⟨.hbm, 330, rfl⟩
abbrev main_cst_203 : Ref sig .tc := ⟨.hbm, 331, rfl⟩
abbrev main_v123 : Ref sig .tc := ⟨.hbm, 332, rfl⟩
abbrev main_v124 : Ref sig .tc := ⟨.hbm, 333, rfl⟩
abbrev main_v125 : Ref sig .tc := ⟨.hbm, 334, rfl⟩
abbrev main_v126 : Ref sig .tc := ⟨.hbm, 335, rfl⟩
abbrev main_v127 : Ref sig .tc := ⟨.hbm, 336, rfl⟩
abbrev main_v128 : Ref sig .tc := ⟨.hbm, 337, rfl⟩
abbrev main_v129 : Ref sig .tc := ⟨.hbm, 338, rfl⟩
abbrev main_v130 : Ref sig .tc := ⟨.hbm, 339, rfl⟩
abbrev main_v131 : Ref sig .tc := ⟨.hbm, 340, rfl⟩
abbrev main_v132 : Ref sig .tc := ⟨.hbm, 341, rfl⟩
abbrev main_v133 : Ref sig .tc := ⟨.hbm, 342, rfl⟩
abbrev main_v134 : Ref sig .tc := ⟨.hbm, 343, rfl⟩
abbrev main_v135 : Ref sig .tc := ⟨.hbm, 344, rfl⟩
abbrev main_v136 : Ref sig .tc := ⟨.hbm, 345, rfl⟩
abbrev main_v137 : Ref sig .tc := ⟨.hbm, 346, rfl⟩
abbrev main_v138 : Ref sig .tc := ⟨.hbm, 347, rfl⟩
abbrev main_v139 : Ref sig .tc := ⟨.hbm, 348, rfl⟩
abbrev main_v140 : Ref sig .tc := ⟨.hbm, 349, rfl⟩
abbrev main_v141 : Ref sig .tc := ⟨.hbm, 350, rfl⟩
abbrev main_v142 : Ref sig .tc := ⟨.hbm, 351, rfl⟩
abbrev main_v143 : Ref sig .tc := ⟨.hbm, 352, rfl⟩
abbrev main_v144 : Ref sig .tc := ⟨.hbm, 353, rfl⟩
abbrev main_v145 : Ref sig .tc := ⟨.hbm, 354, rfl⟩
abbrev main_v146 : Ref sig .tc := ⟨.hbm, 355, rfl⟩
abbrev main_v147 : Ref sig .tc := ⟨.hbm, 356, rfl⟩
abbrev main_v148 : Ref sig .tc := ⟨.hbm, 357, rfl⟩
abbrev main_v149 : Ref sig .tc := ⟨.hbm, 358, rfl⟩
abbrev main_v150 : Ref sig .tc := ⟨.hbm, 359, rfl⟩
abbrev main_v151 : Ref sig .tc := ⟨.hbm, 360, rfl⟩
abbrev main_v152 : Ref sig .tc := ⟨.hbm, 361, rfl⟩
abbrev main_v153 : Ref sig .tc := ⟨.hbm, 362, rfl⟩
abbrev main_v154 : Ref sig .tc := ⟨.hbm, 363, rfl⟩
abbrev main_v155 : Ref sig .tc := ⟨.hbm, 364, rfl⟩
abbrev main_v156 : Ref sig .tc := ⟨.hbm, 365, rfl⟩
abbrev main_v157 : Ref sig .tc := ⟨.hbm, 366, rfl⟩
abbrev main_v158 : Ref sig .tc := ⟨.hbm, 367, rfl⟩
abbrev main_v159 : Ref sig .tc := ⟨.hbm, 368, rfl⟩
abbrev main_v160 : Ref sig .tc := ⟨.hbm, 369, rfl⟩
abbrev main_v161 : Ref sig .tc := ⟨.hbm, 370, rfl⟩
abbrev main_v162 : Ref sig .tc := ⟨.hbm, 371, rfl⟩
abbrev main_v163 : Ref sig .tc := ⟨.hbm, 372, rfl⟩
abbrev main_v164 : Ref sig .tc := ⟨.hbm, 373, rfl⟩
abbrev main_v165 : Ref sig .tc := ⟨.hbm, 374, rfl⟩
abbrev main_v166 : Ref sig .tc := ⟨.hbm, 375, rfl⟩
abbrev main_v167 : Ref sig .tc := ⟨.hbm, 376, rfl⟩
abbrev main_v168 : Ref sig .tc := ⟨.hbm, 377, rfl⟩

abbrev nD : Nat := 1
abbrev τ : Topo := Topo.v7x

variable {F : FTy → Type} [FloatOps F]

class Facts₀ : Prop where
  pads_S4x128x160x320_S4x128x160x360_000_000_000_8320 : S4x128x160x320.Pads (![0, 0, 0, 8] : Fin 4 → Nat) ![0, 0, 0, 32] ![0, 0, 0, 0] S4x128x160x360
  h_S_ : 0 < S_.numel
  sliceFits_S4x128x160x360_S4x128x160x320 : S4x128x160x360.Slices (fun _ => 0) S4x128x160x320
  reducesTo_S4x128x160x320_S4x160x320_d1 : S4x128x160x320.ReducesTo [1] S4x160x320
  bcast_S4x160x320_S4x1x160x320_0_2_3 : S4x160x320.BroadcastsInDim S4x1x160x320 (![0, 2, 3] : Fin 3 → Fin S4x1x160x320.rank)
  concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1 : Shape.Concatenates [S4x1x160x320, S4x1x160x320, S4x1x160x320, S4x1x160x320, S4x1x160x320, S4x1x160x320, S4x1x160x320, S4x1x160x320, S4x1x160x320, S4x1x160x320, S4x1x160x320, S4x1x160x320, S4x1x160x320, S4x1x160x320, S4x1x160x320, S4x1x160x320] S4x16x160x320 1
  concatenates_S4x1x160x320_S4x1x160x320_S4x1x160x320_S4x1x160x320_S4x1x160x320_S4x1x160x320_S4x1x160x320_S4x1x160x320_S4x1x160x320_S4x9x160x320_d1 : Shape.Concatenates [S4x1x160x320, S4x1x160x320, S4x1x160x320, S4x1x160x320, S4x1x160x320, S4x1x160x320, S4x1x160x320, S4x1x160x320, S4x1x160x320] S4x9x160x320 1
  concatenates_S4x16x160x320_S4x16x160x320_S4x9x160x320_S4x41x160x320_d1 : Shape.Concatenates [S4x16x160x320, S4x16x160x320, S4x9x160x320] S4x41x160x320 1

variable [Facts₀]

class Facts : Prop extends Facts₀ where

variable [Facts]
-- ==== Proof.Imports.lean ====
/-
  The generated value leg of the idealized kernel, gathered under one name for the modules that read its blocks.
-/
import proofs.«125600_j13580686590324_2_alg».proof.Proof.Gen.KernelIdeal.Value
-- ==== Proof.CorrSpec.lean ====
/-
  The shifted correlation along a row, as one function of the two argument arrays.

  For arrays `x y` of shape [B, 128, H, 320] the result has shape [B, 41, H, 320]:
      corr x y (b, d, r, w) = Σ_{c < 128} x (b, c, r, w) · y (b, c, r, w + d − 8)   when 0 ≤ w + d − 8 < 320,
                            = 0                                                      otherwise.
  Displacement `d` pairs column `w` of the first array with column `w + d − 8` of the second; where that column
  falls off the row the second array counts as zero, so the whole sum is zero there (`a · 0 = 0` for every extended
  real `a`, infinite ones included, so no finiteness is needed anywhere). The column is written modulo the row
  length (`+ 312 ≡ − 8 mod 320`): inside the row the two agree, and a rotation of the row computes the modular one.

  Also here: a sum over 128 channels is the sum of its four quarters of 32 channels, taken in order from zero —
  associativity and commutativity of `+` on the extended reals, nothing more.
-/
import Idealize.ShloMosaic.PureOps.Ideal
import Idealize.ShloMosaic.Lib.ValueIdx

noncomputable section

namespace Cert.Corr

open Idealize.ShloMosaic Idealize.ShloMosaic.ValueIdx

/-- The column of the second array that displacement `d` pairs with column `w`: `w + d − 8` modulo 320. -/
def col (w d : ℕ) : Fin 320 := ⟨(w + d + 312) % 320, Nat.mod_lt _ (by decide)⟩

/-- Column `w + d − 8` lies inside the row. -/
def inside (w d : ℕ) : Prop := 8 ≤ w + d ∧ w + d < 328

instance (w d : ℕ) : Decidable (inside w d) := by unfold inside; infer_instance

/-- Inside the row the modular column is the plain one. -/
theorem col_val_of_inside {w d : ℕ} (h : inside w d) : (col w d).val + 8 = w + d := by
  have h1 : 8 ≤ w + d := h.1
  have h2 : w + d < 328 := h.2
  show (w + d + 312) % 320 + 8 = w + d
  omega

/-- The shifted correlation of two arrays of `B` images of 128 channels, `H` rows and 320 columns. -/
def corr {B H : Nat} (x y : (⟨4, ![B, 128, H, 320]⟩ : Shape).Idx → EReal) :
    (⟨4, ![B, 41, H, 320]⟩ : Shape).Idx → EReal := fun i =>
  if inside (i 3).val (i 1).val then
    ∑ c : Fin 128, x (ix4 (i 0) c (i 2) (i 3)) * y (ix4 (i 0) c (i 2) (col (i 3).val (i 1).val))
  else 0

theorem corr_ix4 {B H : Nat} (x y : (⟨4, ![B, 128, H, 320]⟩ : Shape).Idx → EReal) (b : Fin B) (d : Fin 41) (r : Fin H)
    (w : Fin 320) :
    corr x y (ix4 b d r w)
      = if inside w.val d.val then ∑ c : Fin 128, x (ix4 b c r w) * y (ix4 b c r (col w.val d.val)) else 0 := rfl

/-- The correlation is computed image by image and row by row: if blocks `x y` are the arrays `X Y` restricted to image
    `β` and the 32 rows from `ρ₀` on, their correlation is the arrays' correlation restricted the same way. -/
theorem corr_block (X Y : (⟨4, ![4, 128, 160, 320]⟩ : Shape).Idx → EReal) (x y : (⟨4, ![1, 128, 32, 320]⟩ : Shape).Idx → EReal)
    (β : Fin 4) (ρ₀ : ℕ) (hρ : ρ₀ + 32 ≤ 160)
    (hx : ∀ (u : Fin 1) (c : Fin 128) (r : Fin 32) (w : Fin 320),
      x (ix4 u c r w) = X (ix4 β c (⟨ρ₀ + r.val, by have := r.isLt; omega⟩ : Fin 160) w))
    (hy : ∀ (u : Fin 1) (c : Fin 128) (r : Fin 32) (w : Fin 320),
      y (ix4 u c r w) = Y (ix4 β c (⟨ρ₀ + r.val, by have := r.isLt; omega⟩ : Fin 160) w))
    (u : Fin 1) (d : Fin 41) (r : Fin 32) (w : Fin 320) :
    corr x y (ix4 u d r w) = corr X Y (ix4 β d (⟨ρ₀ + r.val, by have := r.isLt; omega⟩ : Fin 160) w) := by
  rw [corr_ix4, corr_ix4]
  refine if_congr Iff.rfl (Finset.sum_congr rfl fun c _ => ?_) rfl
  rw [hx, hy]

/-- A function on the 128 channels, continued by zero to all naturals (so that quarters are ranges). -/
def onNat (f : Fin 128 → EReal) (n : ℕ) : EReal := if h : n < 128 then f ⟨n, h⟩ else 0

theorem onNat_of_lt (f : Fin 128 → EReal) (n : ℕ) (h : n < 128) : f ⟨n, h⟩ = onNat f n := by
  unfold onNat; rw [dif_pos h]

/-- A quarter of the channels, starting at channel `q`, as a sum over a range. -/
theorem sum_quarter (f : Fin 128 → EReal) (q : ℕ) (fq : Fin 32 → EReal)
    (hq : ∀ k : Fin 32, ∃ h : q + k.val < 128, fq k = f ⟨q + k.val, h⟩) :
    ∑ k : Fin 32, fq k = ∑ n ∈ Finset.range 32, onNat f (q + n) := by
  rw [← Fin.sum_univ_eq_sum_range (fun n => onNat f (q + n)) 32]
  refine Finset.sum_congr rfl fun k _ => ?_
  obtain ⟨h, e⟩ := hq k
  rw [e]; exact onNat_of_lt f _ h

/-- A sum over 128 terms is the sum of its four quarters, accumulated in order from zero. -/
theorem sum_quarters (f : Fin 128 → EReal) (f0 f1 f2 f3 : Fin 32 → EReal)
    (h0 : ∀ k : Fin 32, f0 k = f ⟨k.val, by have := k.isLt; omega⟩)
    (h1 : ∀ k : Fin 32, f1 k = f ⟨32 + k.val, by have := k.isLt; omega⟩)
    (h2 : ∀ k : Fin 32, f2 k = f ⟨64 + k.val, by have := k.isLt; omega⟩)
    (h3 : ∀ k : Fin 32, f3 k = f ⟨96 + k.val, by have := k.isLt; omega⟩) :
    (((0 + ∑ k : Fin 32, f0 k) + ∑ k : Fin 32, f1 k) + ∑ k : Fin 32, f2 k) + ∑ k : Fin 32, f3 k = ∑ c : Fin 128, f c := by
  have e128 : ∑ c : Fin 128, f c = ∑ n ∈ Finset.range 128, onNat f n := by
    rw [← Fin.sum_univ_eq_sum_range (onNat f) 128]
    exact Finset.sum_congr rfl fun c _ => onNat_of_lt f c.val c.isLt
  have e0 : ∑ k : Fin 32, f0 k = ∑ n ∈ Finset.range 32, onNat f (0 + n) :=
    sum_quarter f 0 f0 fun k => ⟨by have := k.isLt; omega, (h0 k).trans (congrArg f (Fin.ext (Nat.zero_add _).symm))⟩
  have e1 := sum_quarter f 32 f1 fun k => ⟨by have := k.isLt; omega, h1 k⟩
  have e2 := sum_quarter f 64 f2 fun k => ⟨by have := k.isLt; omega, h2 k⟩
  have e3 := sum_quarter f 96 f3 fun k => ⟨by have := k.isLt; omega, h3 k⟩
  have s1 : ∑ n ∈ Finset.range 128, onNat f n
      = ∑ n ∈ Finset.range 96, onNat f n + ∑ n ∈ Finset.range 32, onNat f (96 + n) := Finset.sum_range_add (onNat f) 96 32
  have s2 : ∑ n ∈ Finset.range 96, onNat f n
      = ∑ n ∈ Finset.range 64, onNat f n + ∑ n ∈ Finset.range 32, onNat f (64 + n) := Finset.sum_range_add (onNat f) 64 32
  have s3 : ∑ n ∈ Finset.range 64, onNat f n
      = ∑ n ∈ Finset.range 32, onNat f n + ∑ n ∈ Finset.range 32, onNat f (32 + n) := Finset.sum_range_add (onNat f) 32 32
  rw [e0, e1, e2, e3, e128, zero_add, s1, s2, s3]
  simp only [Nat.zero_add]

end Cert.Corr

end
-- ==== Proof.KerSlab.lean ====
/-
  One displacement of the kernel body, as a function of the eight chunks it loads.

  For one displacement the body takes the four 32-channel chunks of the first block (`a0 … a3`) and of the second
  (`b0 … b3`), rotates each chunk of the second along the row by `sh` columns, multiplies, sums each chunk over its
  32 channels, adds the four sums to zero in order, and keeps the total where the column index lies in `[lo, hi)`
  (compared as signed words), zero elsewhere. `slab` is that term with the displacement's three words as parameters;
  `slab_apply` reads it at row `r`, column `w`: the rotation by `sh` reads column `(w + 320 − sh mod 320) mod 320`.
-/
import Idealize.ShloMosaic.Lib.Pipeline.Value
import Idealize.ShloMosaic.Lib.ValueIdx
import Idealize.ShloMosaic.Lib.ValueLayout
import Idealize.ShloMosaic.Lib.KernelVsHost
import Idealize.ShloMosaic.Lib.DynamicIndex
import Idealize.ShloMosaic.Lib.Affine
import Idealize.ShloMosaic.PureOps.Ideal.Laws

noncomputable section

namespace Cert.Corr

open Idealize.ShloMosaic Idealize.ShloMosaic.ValueIdx

/-- A tile of 32 rows of 320 columns; a chunk of 32 channels of it, with and without a leading unit axis; and the tile
    as the one-displacement slab of the output block. -/
abbrev Tile : Shape := ⟨2, ![32, 320]⟩
abbrev Chunk3 : Shape := ⟨3, ![32, 32, 320]⟩
abbrev Chunk4 : Shape := ⟨4, ![1, 32, 32, 320]⟩
abbrev Slab4 : Shape := ⟨4, ![1, 1, 32, 320]⟩

section Term
variable {F : FTy → Type} [FloatOps F]

/-- One chunk: the first block's chunk times the second's rotated along the row by `sh`, summed over the 32 channels. -/
def chunkSum (hsc : Chunk4.ShapeCasts Chunk3) (hrot : Chunk3.Rotates 2 none) (hred : Chunk3.Reduces [0] Tile)
    (sh : BitVec 32) (a b : Vec F Chunk4 .f32) : FVec F Tile .f32 :=
  multiReduction .add [0] Tile
    (mulf (shapeCast Chunk3 a hsc) (dynamicRotate 2 sh none (shapeCast Chunk3 b hsc) hrot))
    0x00000000#32 hred (.inl rfl) rfl

/-- One displacement: the four chunk sums added to zero in order, kept where `lo ≤ column < hi`. -/
def slab (hio : Tile.Iotas .tc 32 [1]) (hsc : Chunk4.ShapeCasts Chunk3) (hrot : Chunk3.Rotates 2 none)
    (hred : Chunk3.Reduces [0] Tile) (hsc' : Tile.ShapeCasts Slab4) (lo hi sh : BitVec 32)
    (a0 b0 a1 b1 a2 b2 a3 b3 : Vec F Chunk4 .f32) : FVec F Slab4 .f32 :=
  shapeCast Slab4
    (select
      (andi (cmpi .sge (iota .tc Tile 32 [1] hio) (broadcast Tile lo)) (cmpi .slt (iota .tc Tile 32 [1] hio) (broadcast Tile hi)))
      (addf (addf (addf (addf (broadcast Tile (Scalar.ofBits .f32 0x00000000#32)) (chunkSum hsc hrot hred sh a0 b0))
        (chunkSum hsc hrot hred sh a1 b1)) (chunkSum hsc hrot hred sh a2 b2)) (chunkSum hsc hrot hred sh a3 b3))
      (broadcast Tile (Scalar.ofBits .f32 0x00000000#32)))
    hsc'

end Term

/-- The column a rotation of the row by `sh` reads at column `w`. -/
def rotCol (sh : BitVec 32) (w : Fin 320) : Fin 320 := ⟨(w.val + 320 - sh.toNat % 320) % 320, Nat.mod_lt _ (by decide)⟩

/-- The reduced index (r, w) with channel `k` put back is (k, r, w). -/
theorem lift_chunk (h : Chunk3.Reduces [0] Tile) (r : Fin 32) (w : Fin 320) (k : Fin (Chunk3.size 0)) :
    h.lift (ix2 r w) k = ix3 (⟨k.val, k.isLt⟩ : Fin 32) r w := by
  funext c; apply Fin.ext
  fin_cases c <;> rfl

/-- A chunk sum at row `r`, column `w`: over the 32 channels, the first block's entry times the second's at the rotated
    column. -/
theorem chunkSum_apply (hsc : Chunk4.ShapeCasts Chunk3) (hrot : Chunk3.Rotates 2 none) (hred : Chunk3.Reduces [0] Tile)
    (sh : BitVec 32) (a b : Vec Ideal Chunk4 .f32) (r : Fin 32) (w : Fin 320) :
    chunkSum (F := Ideal) hsc hrot hred sh a b (ix2 r w)
      = ∑ k : Fin 32, a (ix4 (0 : Fin 1) k r w) * b (ix4 (0 : Fin 1) k r (rotCol sh w)) := by
  unfold chunkSum
  refine (Ideal.multiReduction_add_single
    (mulf (shapeCast Chunk3 a hsc) (dynamicRotate 2 sh none (shapeCast Chunk3 b hsc) hrot)) 0x00000000#32 hred (.inl rfl) rfl
    (ix2 r w)).trans ?_
  show ∑ k : Fin 32, _ = _
  refine Finset.sum_congr rfl fun k _ => ?_
  rw [lift_chunk hred r w k]
  show shapeCast Chunk3 a hsc (ix3 (⟨k.val, k.isLt⟩ : Fin 32) r w)
      * dynamicRotate 2 sh none (shapeCast Chunk3 b hsc) hrot (ix3 (⟨k.val, k.isLt⟩ : Fin 32) r w) = _
  have hk : (⟨k.val, k.isLt⟩ : Fin 32) = k := Fin.ext rfl
  rw [hk, shapeCast_1abc_abc_apply a hsc k r w]
  rw [dynamicRotate_apply (2 : Fin 3) sh (shapeCast Chunk3 b hsc) hrot (ix3 k r w) (ix3 k r (rotCol sh w)) (fun c =>
    match c with
    | ⟨0, _⟩ => by
      rw [if_neg (fun h => absurd (congrArg Fin.val h) (by show (0 : ℕ) ≠ 2; decide))]
    | ⟨1, _⟩ => by
      rw [if_neg (fun h => absurd (congrArg Fin.val h) (by show (1 : ℕ) ≠ 2; decide))]
    | ⟨2, h2⟩ => by
      rw [if_pos (show (⟨2, h2⟩ : Fin Chunk3.rank) = 2 from Fin.ext rfl)]; rfl)]
  rw [shapeCast_1abc_abc_apply b hsc k r (rotCol sh w)]

/-- The mask word at column `w` is one exactly when `lo ≤ w < hi`, the bounds read as signed words. -/
theorem mask_apply (hio : Tile.Iotas .tc 32 [1]) (lo hi : BitVec 32) (r : Fin 32) (w : Fin 320) :
    andi (cmpi .sge (iota .tc Tile 32 [1] hio) (broadcast Tile lo)) (cmpi .slt (iota .tc Tile 32 [1] hio) (broadcast Tile hi))
      (ix2 r w) = 1#1 ↔ lo.toInt ≤ (w.val : ℤ) ∧ (w.val : ℤ) < hi.toInt := by
  have hw : (BitVec.ofNat 32 w.val).toInt = (w.val : ℤ) := toInt_ofNat_of_lt (by have := w.isLt; omega)
  have hi' : iota .tc Tile 32 [1] hio (ix2 r w) = BitVec.ofNat 32 w.val := iota_single_apply .tc Tile 32 1 hio (ix2 r w)
  show IntOp.andi (IntOp.cmpi .sge (iota .tc Tile 32 [1] hio (ix2 r w)) lo)
      (IntOp.cmpi .slt (iota .tc Tile 32 [1] hio (ix2 r w)) hi) = 1#1 ↔ _
  rw [hi', IntOp.andi_eq_one, IntOp.cmpi_sge, IntOp.cmpi_slt, hw]

/-- One displacement at row `r`, column `w`. -/
theorem slab_apply (hio : Tile.Iotas .tc 32 [1]) (hsc : Chunk4.ShapeCasts Chunk3) (hrot : Chunk3.Rotates 2 none)
    (hred : Chunk3.Reduces [0] Tile) (hsc' : Tile.ShapeCasts Slab4) (lo hi sh : BitVec 32)
    (a0 b0 a1 b1 a2 b2 a3 b3 : Vec Ideal Chunk4 .f32) (u v : Fin 1) (r : Fin 32) (w : Fin 320) :
    slab (F := Ideal) hio hsc hrot hred hsc' lo hi sh a0 b0 a1 b1 a2 b2 a3 b3 (ix4 u v r w)
      = if lo.toInt ≤ (w.val : ℤ) ∧ (w.val : ℤ) < hi.toInt then
          (((0 + ∑ k : Fin 32, a0 (ix4 (0 : Fin 1) k r w) * b0 (ix4 (0 : Fin 1) k r (rotCol sh w)))
            + ∑ k : Fin 32, a1 (ix4 (0 : Fin 1) k r w) * b1 (ix4 (0 : Fin 1) k r (rotCol sh w)))
            + ∑ k : Fin 32, a2 (ix4 (0 : Fin 1) k r w) * b2 (ix4 (0 : Fin 1) k r (rotCol sh w)))
            + ∑ k : Fin 32, a3 (ix4 (0 : Fin 1) k r w) * b3 (ix4 (0 : Fin 1) k r (rotCol sh w))
        else 0 := by
  unfold slab
  refine (shapeCast_apply _ hsc' (ix4 u v r w) (ix2 r w) (by
    have hu : u.val = 0 := by omega
    have hv : v.val = 0 := by omega
    rw [Shape.rowMajor_val_two, Shape.rowMajor_val_four]
    show r.val * 320 + w.val = ((u.val * 1 + v.val) * 32 + r.val) * 320 + w.val
    omega)).trans ?_
  rw [select_apply]
  show (if _ = 1#1 then _ else _) = _
  have hz : (Scalar.ofBits .f32 0x00000000#32 : Ideal .f32) = 0 := Ideal.ofBits_zero_f32
  refine (if_congr (mask_apply hio lo hi r w) ?_ ?_)
  · show (((broadcast Tile (Scalar.ofBits .f32 0x00000000#32 : Ideal .f32) (ix2 r w)
        + chunkSum (F := Ideal) hsc hrot hred sh a0 b0 (ix2 r w)) + chunkSum (F := Ideal) hsc hrot hred sh a1 b1 (ix2 r w))
        + chunkSum (F := Ideal) hsc hrot hred sh a2 b2 (ix2 r w)) + chunkSum (F := Ideal) hsc hrot hred sh a3 b3 (ix2 r w) = _
    rw [chunkSum_apply, chunkSum_apply, chunkSum_apply, chunkSum_apply]
    show ((((Scalar.ofBits .f32 0x00000000#32 : Ideal .f32) + _) + _) + _) + _ = _
    rw [hz]
  · exact hz

end Cert.Corr

end
-- ==== Proof.KerBlock.lean ====
/-
  What the kernel body leaves in its output block: the shifted correlation of its two input blocks.

  At a grid point the body holds one image's 32 rows: blocks `x0 x1` of shape [1, 128, 32, 320], and writes the output
  block [1, 41, 32, 320] one displacement at a time, 41 stores of one [1, 1, 32, 320] slab each, slab `d` at
  displacement coordinate `d`. Every slab is the SAME term of the loaded chunks up to three words: the mask's lower
  bound `8 − d` (zero from `d = 8` on), its upper bound `320` (`328 − d` from `d = 9` on), and the rotation amount
  `(8 − d) mod 320 = (328 − d) mod 320`. With those words slab `d` at (r, w) is the correlation at displacement `d`:
  the mask `8 − d ≤ w < 320 − (d − 8)` says `0 ≤ w + d − 8 < 320`, the rotation reads column `w + d − 8` modulo 320, the
  four chunk sums are the quarters of the sum over the 128 channels. So the 41 stores agree with one function of the
  block index, and since they tile the block, the block is that function.
-/
import proofs.«125600_j13580686590324_2_alg».proof.Proof.Imports
import proofs.«125600_j13580686590324_2_alg».proof.Proof.CorrSpec
import proofs.«125600_j13580686590324_2_alg».proof.Proof.KerSlab

noncomputable section

namespace Cert.KernelIdeal.BlockValue

open Cert.KernelIdeal Cert.KernelIdeal.Gen Cert.Corr Idealize.ShloMosaic Idealize.ShloMosaic.ValueIdx
open Idealize.ShloMosaic.TcCoe Idealize.SL.Sem

/-! ## The three words of displacement `d` -/

/-- The mask's lower bound: `8 − d`, zero from `d = 8` on. -/
def loW (d : ℕ) : BitVec 32 := BitVec.ofNat 32 (8 - d)
/-- The mask's upper bound: `320`, and `328 − d` from `d = 9` on. -/
def hiW (d : ℕ) : BitVec 32 := BitVec.ofNat 32 (320 - (d - 8))
/-- The rotation amount: `8 − d` modulo the row length. -/
def shW (d : ℕ) : BitVec 32 := BitVec.ofNat 32 ((328 - d) % 320)

/-! ## The slabs -/

section Term
variable {F : FTy → Type} [FloatOps F]

/-- Slab `d` of the output block as the body computes it from the input blocks' four chunks. -/
def piece (d : ℕ) (x0 x1 : Vec F S1x128x32x320 .f32) : FVec F S1x1x32x320 .f32 :=
  slab iota_S32x320_d1_w32 shapeCasts_S1x32x32x320_S32x32x320 rotates_S32x32x320_d2 reduces_S32x32x320_S32x320
    shapeCasts_S32x320_S1x1x32x320 (loW d) (hiW d) (shW d)
    (View.ld x0 r0_0) (View.ld x1 r0_0) (View.ld x0 r0_1) (View.ld x1 r0_1)
    (View.ld x0 r0_2) (View.ld x1 r0_2) (View.ld x0 r0_3) (View.ld x1 r0_3)

/-- Where slab `d` sits in the output block: displacement coordinate `d`, everything on the other axes. -/
theorem slabInb (d : Fin 41) : ∀ a, (![0, d.val, 0, 0] : Fin 4 → Nat) a + S1x1x32x320.size a ≤ S1x41x32x320.size a :=
  fun a => match a with
  | ⟨0, _⟩ => by show 0 + 1 ≤ 1; omega
  | ⟨1, _⟩ => by show d.val + 1 ≤ 41; omega
  | ⟨2, _⟩ => by show 0 + 32 ≤ 32; omega
  | ⟨3, _⟩ => by show 0 + 320 ≤ 320; omega

def slabRect (d : Fin 41) : Rect S1x41x32x320 :=
  Rect.unit (s := S1x41x32x320) ![0, d.val, 0, 0] S1x1x32x320.size (slabInb d)

/-- The body's 41 stores, last first, are the slabs `40, 39, …, 0`: each printed payload is `piece d` (the payloads
    unfold to it, the displacement's three words computed). -/
theorem out0_2_pieces (x0 x1 : Vec F S1x128x32x320 .f32) :
    out0_2 x0 x1
      = View.canon ((List.ofFn fun d : Fin 41 =>
          (⟨slabRect d, piece d.val x0 x1⟩ : View.Piece (Elt F) S1x41x32x320 .f32)).reverse) := rfl

end Term

/-! ## A slab at an index -/

/-- A chunk loaded from the input block, at an index: the block at channel `q + k`. -/
theorem ld_chunk (X : Vec Ideal S1x128x32x320 .f32) (q : ℕ)
    (inb : ∀ a, (![0, q, 0, 0] : Fin 4 → Nat) a + S1x32x32x320.size a ≤ S1x128x32x320.size a)
    (k : Fin 32) (r : Fin 32) (w : Fin 320) (hq : q + k.val < 128) :
    View.ld (Val := Elt Ideal) X (Rect.unit (s := S1x128x32x320) ![0, q, 0, 0] S1x32x32x320.size inb) (ix4 (0 : Fin 1) k r w)
      = X (ix4 (0 : Fin 1) (⟨q + k.val, hq⟩ : Fin 128) r w) := by
  refine congrArg X (funext fun a => Fin.ext ?_)
  match a with
  | ⟨0, _⟩ => show 0 + 1 * 0 = 0; omega
  | ⟨1, _⟩ => show q + 1 * k.val = q + k.val; omega
  | ⟨2, _⟩ => show 0 + 1 * r.val = r.val; omega
  | ⟨3, _⟩ => show 0 + 1 * w.val = w.val; omega

/-- Slab `d` at its index `x` is the correlation of the blocks at the block index the slab's rectangle gives `x`. -/
theorem piece_apply (d : Fin 41) (x0 x1 : Vec Ideal S1x128x32x320 .f32) (x : S1x1x32x320.Idx) :
    piece d.val x0 x1 x = corr (B := 1) (H := 32) x0 x1 ((slabRect d).emb x) := by
  obtain ⟨u, v, r, w, rfl⟩ : ∃ (u : Fin 1) (v : Fin 1) (r : Fin 32) (w : Fin 320), x = ix4 u v r w :=
    ⟨x 0, x 1, x 2, x 3, eq_ix4 x⟩
  have hd : d.val < 41 := d.isLt
  have hw : w.val < 320 := w.isLt
  have hemb : (slabRect d).emb (ix4 u v r w) = ix4 (0 : Fin 1) d r w := by
    funext a; apply Fin.ext
    match a with
    | ⟨0, _⟩ => show 0 + 1 * u.val = 0; omega
    | ⟨1, _⟩ => show d.val + 1 * v.val = d.val; omega
    | ⟨2, _⟩ => show 0 + 1 * r.val = r.val; omega
    | ⟨3, _⟩ => show 0 + 1 * w.val = w.val; omega
  rw [hemb, corr_ix4]
  unfold piece
  rw [slab_apply]
  have hlo : (loW d.val).toInt = ((8 - d.val : ℕ) : ℤ) := toInt_ofNat_of_lt (by omega)
  have hhi : (hiW d.val).toInt = ((320 - (d.val - 8) : ℕ) : ℤ) := toInt_ofNat_of_lt (by omega)
  have hmask : ((loW d.val).toInt ≤ (w.val : ℤ) ∧ (w.val : ℤ) < (hiW d.val).toInt) ↔ inside w.val d.val := by
    rw [hlo, hhi]; unfold inside; omega
  have hsh : (shW d.val).toNat = (328 - d.val) % 320 := by
    unfold shW; rw [BitVec.toNat_ofNat]; exact Nat.mod_eq_of_lt (by omega)
  have hrot : rotCol (shW d.val) w = col w.val d.val := by
    apply Fin.ext
    show (w.val + 320 - (shW d.val).toNat % 320) % 320 = (w.val + d.val + 312) % 320
    rw [hsh]; omega
  refine if_congr hmask ?_ rfl
  rw [hrot]
  refine sum_quarters (fun c => x0 (ix4 (0 : Fin 1) c r w) * x1 (ix4 (0 : Fin 1) c r (col w.val d.val))) _ _ _ _
    (fun k => ?_) (fun k => ?_) (fun k => ?_) (fun k => ?_)
  · have hk : k.val < 32 := k.isLt
    show View.ld x0 r0_0 (ix4 (0 : Fin 1) k r w) * View.ld x1 r0_0 (ix4 (0 : Fin 1) k r (col w.val d.val)) = _
    rw [ld_chunk x0 0 _ k r w (by omega), ld_chunk x1 0 _ k r (col w.val d.val) (by omega)]
    have e : (⟨0 + k.val, by omega⟩ : Fin 128) = ⟨k.val, by omega⟩ := Fin.ext (Nat.zero_add _)
    rw [e]
  · have hk : k.val < 32 := k.isLt
    show View.ld x0 r0_1 (ix4 (0 : Fin 1) k r w) * View.ld x1 r0_1 (ix4 (0 : Fin 1) k r (col w.val d.val)) = _
    rw [ld_chunk x0 32 _ k r w (by omega), ld_chunk x1 32 _ k r (col w.val d.val) (by omega)]
  · have hk : k.val < 32 := k.isLt
    show View.ld x0 r0_2 (ix4 (0 : Fin 1) k r w) * View.ld x1 r0_2 (ix4 (0 : Fin 1) k r (col w.val d.val)) = _
    rw [ld_chunk x0 64 _ k r w (by omega), ld_chunk x1 64 _ k r (col w.val d.val) (by omega)]
  · have hk : k.val < 32 := k.isLt
    show View.ld x0 r0_3 (ix4 (0 : Fin 1) k r w) * View.ld x1 r0_3 (ix4 (0 : Fin 1) k r (col w.val d.val)) = _
    rw [ld_chunk x0 96 _ k r w (by omega), ld_chunk x1 96 _ k r (col w.val d.val) (by omega)]

/-! ## The block -/

/-- The output block the body leaves is the correlation of the input blocks. -/
theorem out0_2_eq (x0 x1 : Vec Ideal S1x128x32x320 .f32) : out0_2 x0 x1 = corr (B := 1) (H := 32) x0 x1 := by
  rw [out0_2_pieces]
  funext y
  refine View.canon_apply_of_pieces (Val := Elt Ideal) (S := S1x41x32x320) (e := .f32)
    (corr (B := 1) (H := 32) x0 x1 : S1x41x32x320.Idx → Elt Ideal .f32) _ (fun p hp x => ?_) y ?_
  · obtain ⟨d, rfl⟩ := List.mem_ofFn.1 (List.mem_reverse.1 hp)
    exact piece_apply d x0 x1 x
  · refine ⟨⟨slabRect (y 1), piece (y 1).val x0 x1⟩, List.mem_reverse.2 (List.mem_ofFn.2 ⟨y 1, rfl⟩), ?_⟩
    show y ∈ (slabRect (y 1)).set
    unfold slabRect
    rw [Rect.mem_set_unit]
    intro a
    match a with
    | ⟨0, _⟩ => exact ⟨Nat.zero_le _, by show (y 0).val < 0 + 1; have h0 : (y 0).val < 1 := (y 0).isLt; omega⟩
    | ⟨1, _⟩ => exact ⟨Nat.le_refl _, by show (y 1).val < (y 1).val + 1; omega⟩
    | ⟨2, _⟩ => exact ⟨Nat.zero_le _, by show (y 2).val < 0 + 32; have h2 : (y 2).val < 32 := (y 2).isLt; omega⟩
    | ⟨3, _⟩ => exact ⟨Nat.zero_le _, by show (y 3).val < 0 + 320; have h3 : (y 3).val < 320 := (y 3).isLt; omega⟩

end Cert.KernelIdeal.BlockValue

end
-- ==== Proof.KerArray.lean ====
/-
  From the kernel's blocks to its result array.

  The grid has 4 × 5 points: point (b, h) stages image `b`'s rows `32·h … 32·h + 31` of both arguments — all 128
  channels, all 320 columns — and writes back the same rows of image `b` of the result, all 41 displacements. The
  correlation is computed image by image and row by row, so the block a point writes back, the correlation of its two
  input blocks, is the correlation of the whole arrays read through the point's output block. The 20 output blocks
  tile the result array (every image, every group of 32 rows), so after the run the array is the correlation.
-/
import proofs.«125600_j13580686590324_2_alg».proof.Proof.KerBlock

noncomputable section

namespace Cert.KernelIdeal.ArrayValue

open Cert.KernelIdeal Cert.KernelIdeal.Gen Cert.KernelIdeal.BlockValue Cert.Corr
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The three index maps over the grid: the inputs move with the output on the image and row-group axes, and no
    window moves on the channel / displacement and column axes. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 3 ∧ win0_2.index t (2 : Fin 4) ≤ 4 :=
  (by decide +kernel : ∀ t : Fin grid0.N, _)

/-- Every image and every group of 32 rows is some point's output block. -/
theorem idx_onto : ∀ (q0 : Fin 4) (q2 : Fin 5), ∃ t : Fin cfg0.N, win0_2.index t = ![q0.val, 0, q2.val, 0] :=
  (by decide +kernel : ∀ (q0 : Fin 4) (q2 : Fin 5), ∃ t : Fin grid0.N, win0_2.index t = ![q0.val, 0, q2.val, 0])

/-- What point `t` writes back is its block of the arrays' correlation. -/
theorem flushed_eq (c : Dev nD) (t : Fin cfg0.N) :
    (dats m 0 c).flushed 2 t
      = ((cfg0.win 2).blk t).view.read (Elt Ideal)
          (corr (B := 4) (H := 160) (V m c main_arg0) (V m c main_arg1)) := by
  rw [Cert.KernelIdeal.Value.flushed2, out0_2_eq]
  obtain ⟨a0, a1, a2, a3, b0, b1, b2, b3, o1, o3, l0, l2⟩ := idx_facts t
  refine funext fun (j : S1x41x32x320.Idx) => ?_
  obtain ⟨u, d, r, w, rfl⟩ : ∃ (u : Fin 1) (d : Fin 41) (r : Fin 32) (w : Fin 320), j = ix4 u d r w :=
    ⟨j 0, j 1, j 2, j 3, eq_ix4 j⟩
  have hr : r.val < 32 := r.isLt
  have hemb : ((cfg0.win 2).blk t).view.emb (ix4 u d r w)
      = ix4 (⟨win0_2.index t (0 : Fin 4), by omega⟩ : Fin 4) d
          (⟨win0_2.index t (2 : Fin 4) * 32 + r.val, by omega⟩ : Fin 160) w := by
    funext a; apply Fin.ext
    match a with
    | ⟨0, _⟩ => show win0_2.index t (0 : Fin 4) * 1 + 1 * u.val = win0_2.index t (0 : Fin 4); omega
    | ⟨1, _⟩ => show win0_2.index t (1 : Fin 4) * 41 + 1 * d.val = d.val; omega
    | ⟨2, _⟩ => show win0_2.index t (2 : Fin 4) * 32 + 1 * r.val = win0_2.index t (2 : Fin 4) * 32 + r.val; omega
    | ⟨3, _⟩ => show win0_2.index t (3 : Fin 4) * 320 + 1 * w.val = w.val; omega
  show corr (B := 1) (H := 32) (iblk m c 0 t) (iblk m c 1 t) (ix4 u d r w)
      = corr (B := 4) (H := 160) (V m c main_arg0) (V m c main_arg1) (((cfg0.win 2).blk t).view.emb (ix4 u d r w))
  rw [hemb]
  refine corr_block (V m c main_arg0) (V m c main_arg1) (iblk m c 0 t) (iblk m c 1 t)
    ⟨win0_2.index t (0 : Fin 4), by omega⟩ (win0_2.index t (2 : Fin 4) * 32) (by omega)
    (fun u' c' r' w' => ?_) (fun u' c' r' w' => ?_) u d r w
  · have hr' : r'.val < 32 := r'.isLt
    show V m c main_arg0 (((cfg0.win 0).blk t).view.emb (ix4 u' c' r' w')) = _
    refine congrArg (V m c main_arg0) (funext fun a => Fin.ext ?_)
    match a with
    | ⟨0, _⟩ => show win0_0.index t (0 : Fin 4) * 1 + 1 * u'.val = win0_2.index t (0 : Fin 4); omega
    | ⟨1, _⟩ => show win0_0.index t (1 : Fin 4) * 128 + 1 * c'.val = c'.val; omega
    | ⟨2, _⟩ => show win0_0.index t (2 : Fin 4) * 32 + 1 * r'.val = win0_2.index t (2 : Fin 4) * 32 + r'.val; omega
    | ⟨3, _⟩ => show win0_0.index t (3 : Fin 4) * 320 + 1 * w'.val = w'.val; omega
  · have hr' : r'.val < 32 := r'.isLt
    show V m c main_arg1 (((cfg0.win 1).blk t).view.emb (ix4 u' c' r' w')) = _
    refine congrArg (V m c main_arg1) (funext fun a => Fin.ext ?_)
    match a with
    | ⟨0, _⟩ => show win0_1.index t (0 : Fin 4) * 1 + 1 * u'.val = win0_2.index t (0 : Fin 4); omega
    | ⟨1, _⟩ => show win0_1.index t (1 : Fin 4) * 128 + 1 * c'.val = c'.val; omega
    | ⟨2, _⟩ => show win0_1.index t (2 : Fin 4) * 32 + 1 * r'.val = win0_2.index t (2 : Fin 4) * 32 + r'.val; omega
    | ⟨3, _⟩ => show win0_1.index t (3 : Fin 4) * 320 + 1 * w'.val = w'.val; omega

/-- An index of the result array is in point `t`'s block iff each coordinate is in the block's range on its axis. -/
theorem mem_blk (t : Fin cfg0.N) (i : S4x41x160x320.Idx) :
    i ∈ ((cfg0.win 2).blk t).view.set ↔ ∀ a : Fin 4, win0_2.index t a * S1x41x32x320.size a ≤ (i a).val
      ∧ (i a).val < win0_2.index t a * S1x41x32x320.size a + S1x41x32x320.size a := by
  show i ∈ ((View.whole main_v0).slice (win0_2.rect t)).set ↔ _
  rw [View.set_slice_whole, Rect.mem_set_unit]
  exact Iff.rfl

/-- Every index of the result array is in some point's block: image `i 0`, row group `i 2 / 32`. -/
theorem cover (i : S4x41x160x320.Idx) :
    ∃ t : Fin cfg0.N, (cfg0.win 2).flush t = true ∧ i ∈ ((cfg0.win 2).blk t).view.set := by
  have hi0 : (i 0).val < 4 := (i 0).isLt
  have hi1 : (i 1).val < 41 := (i 1).isLt
  have hi2 : (i 2).val < 160 := (i 2).isLt
  have hi3 : (i 3).val < 320 := (i 3).isLt
  obtain ⟨t, ht⟩ := idx_onto ⟨(i 0).val, hi0⟩ ⟨(i 2).val / 32, by omega⟩
  have q0 : win0_2.index t (0 : Fin 4) = (i 0).val := congrFun ht 0
  have q1 : win0_2.index t (1 : Fin 4) = 0 := congrFun ht 1
  have q2 : win0_2.index t (2 : Fin 4) = (i 2).val / 32 := congrFun ht 2
  have q3 : win0_2.index t (3 : Fin 4) = 0 := congrFun ht 3
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1; omega
  | ⟨1, _⟩ =>
    show win0_2.index t (1 : Fin 4) * 41 ≤ (i 1).val ∧ (i 1).val < win0_2.index t (1 : Fin 4) * 41 + 41; omega
  | ⟨2, _⟩ =>
    show win0_2.index t (2 : Fin 4) * 32 ≤ (i 2).val ∧ (i 2).val < win0_2.index t (2 : Fin 4) * 32 + 32; omega
  | ⟨3, _⟩ =>
    show win0_2.index t (3 : Fin 4) * 320 ≤ (i 3).val ∧ (i 3).val < win0_2.index t (3 : Fin 4) * 320 + 320; omega

/-- The result array after the run is the correlation of the argument arrays. -/
theorem final (c : Dev nD) :
    (dats m 0 c).arrAt 2 cfg0.N
      = corr (B := 4) (H := 160) (m ((c : Thread nD τ).loc main_arg0)) (m ((c : Thread nD τ).loc main_arg1)) :=
  (dats m 0 c).arrAt_eq_of_cover 2 _ (fun t _ => flushed_eq m c t) cover

/-- The kernel's run: it ends with the result array at the correlation of the arguments, the arguments unchanged. -/
theorem run : θ_run defs (onTc (τ := τ) (main (F := Ideal))) ⟨m, fun _ => 0, ρ⟩ fun r => ∀ c : Dev nD,
      r.2.mem ((c : Thread nD τ).loc main_v0)
        = corr (B := 4) (H := 160) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.RefSlab.lean ====
/-
  One displacement of the reference, as a function of the two argument arrays.

  The reference pads the second array's rows by 8 zeros in front and 32 behind (rows of 360), takes the 320 columns
  starting at column `d`, multiplies by the first array and sums over the 128 channels from zero. `refDisp` is that
  term with the start word as a parameter. Column `w` of the cut is column `w + d` of the padded row, which is column
  `w + d − 8` of the second array when `8 ≤ w + d < 328` and the padding value otherwise (`slice_pad_apply`). The
  padding value is the integer 0 converted, the real number 0; a product with 0 is 0 for every extended real, so off
  the row the channel sum is a sum of zeros (`refDisp_apply`).
-/
import Idealize.ShloMosaic.Lib.Pipeline.Value
import Idealize.ShloMosaic.Lib.ValueIdx
import Idealize.ShloMosaic.Lib.KernelVsHost
import Idealize.ShloMosaic.Lib.DynamicIndex
import Idealize.ShloMosaic.PureOps.Ideal.Laws

noncomputable section

namespace Cert.Corr

open Idealize.ShloMosaic Idealize.ShloMosaic.ValueIdx

/-- An argument array; its rows padded to 360 columns; one displacement's result; the shape of a scalar. -/
abbrev Arr : Shape := ⟨4, ![4, 128, 160, 320]⟩
abbrev Padded : Shape := ⟨4, ![4, 128, 160, 360]⟩
abbrev Plane : Shape := ⟨3, ![4, 160, 320]⟩
abbrev Unit0 : Shape := ⟨0, ![]⟩

section Term
variable {F : FTy → Type} [FloatOps F]

/-- One displacement of the reference: the channel sum of the first array times the cut of the padded second array that
    starts at column `d`. -/
def refDisp (hpad : Arr.Pads (![0, 0, 0, 8] : Fin 4 → Nat) ![0, 0, 0, 32] ![0, 0, 0, 0] Padded) (hu : 0 < Unit0.numel)
    (hsl : Padded.Slices (fun _ => 0) Arr) (hred : Arr.ReducesTo [1] Plane) (d : BitVec 32)
    (x y : (⟨Arr, .f32⟩ : BufTy).Contents (Elt F)) : (⟨Plane, .f32⟩ : BufTy).Contents (Elt F) :=
  Host.reduceAdd
    (mulf x (Host.dynamicSlice Arr
      (pad Padded ![0, 0, 0, 8] ![0, 0, 0, 32] ![0, 0, 0, 0] y (sitofp .f32 (constantI Unit0 32 0#32)) hpad hu)
      (fun k => (((![constantI Unit0 32 0#32, constantI Unit0 32 0#32, constantI Unit0 32 0#32, constantI Unit0 32 d] :
        Fin 4 → (⟨Unit0, .i32⟩ : BufTy).Contents (Elt F))) k (Shape.Idx.first hu)).toInt) hsl))
    (constant Unit0 .f32 0x00000000#32) hred hu

end Term

/-- The cut of the padded array that starts at column `d`, read at an index: the array at column `w + d − 8` inside
    the row, the padding value off it. -/
theorem slice_pad_apply {α : Type} (hpad : Arr.Pads (![0, 0, 0, 8] : Fin 4 → Nat) ![0, 0, 0, 32] ![0, 0, 0, 0] Padded)
    (hu : 0 < Unit0.numel) (hsl : Padded.Slices (fun _ => 0) Arr) (d : ℕ) (hd : d < 41) (y : Arr.Idx → α)
    (v : Unit0.Idx → α) (b : Fin 4) (c : Fin 128) (r : Fin 160) (w : Fin 320) :
    Host.dynamicSlice Arr (pad Padded ![0, 0, 0, 8] ![0, 0, 0, 32] ![0, 0, 0, 0] y v hpad hu)
      (fun k => (((![constantI Unit0 32 0#32, constantI Unit0 32 0#32, constantI Unit0 32 0#32,
        constantI Unit0 32 (BitVec.ofNat 32 d)] : Fin 4 → Unit0.Idx → BitVec 32)) k (Shape.Idx.first hu)).toInt) hsl
      (ix4 b c r w)
    = if 8 ≤ w.val + d ∧ w.val + d < 328 then
        y (ix4 b c r (⟨(w.val + d + 312) % 320, Nat.mod_lt _ (by decide)⟩ : Fin 320))
      else v (Shape.Idx.first hu) := by
  have hw : w.val < 320 := w.isLt
  have hoff : Padded.Slices (![0, 0, 0, d] : Fin 4 → Nat) Arr := ⟨rfl, fun a => match a with
    | ⟨0, _⟩ => by show 0 + 4 ≤ 4; omega
    | ⟨1, _⟩ => by show 0 + 128 ≤ 128; omega
    | ⟨2, _⟩ => by show 0 + 160 ≤ 160; omega
    | ⟨3, _⟩ => by show d + 320 ≤ 360; omega⟩
  rw [Host.dynamicSlice_eq_extractStridedSlice Arr _ _ (![0, 0, 0, d] : Fin 4 → Nat) hsl hoff (fun a => match a with
    | ⟨0, _⟩ => by show (0#32 : BitVec 32).toInt = ((0 : ℕ) : ℤ); decide
    | ⟨1, _⟩ => by show (0#32 : BitVec 32).toInt = ((0 : ℕ) : ℤ); decide
    | ⟨2, _⟩ => by show (0#32 : BitVec 32).toInt = ((0 : ℕ) : ℤ); decide
    | ⟨3, _⟩ => by show (BitVec.ofNat 32 d).toInt = ((d : ℕ) : ℤ); exact toInt_ofNat_of_lt (by omega))]
  rw [extractStridedSlice_apply (![0, 0, 0, d] : Fin 4 → Nat) _ hoff (ix4 b c r w)
    (ix4 b c r (⟨w.val + d, by omega⟩ : Fin 360)) (fun a => match a with
    | ⟨0, _⟩ => by show b.val = 0 + b.val; omega
    | ⟨1, _⟩ => by show c.val = 0 + c.val; omega
    | ⟨2, _⟩ => by show r.val = 0 + r.val; omega
    | ⟨3, _⟩ => by show w.val + d = d + w.val; omega)]
  by_cases h : 8 ≤ w.val + d ∧ w.val + d < 328
  · rw [if_pos h]
    exact pad_apply_of_inside _ _ _ y v hpad hu _
      (ix4 b c r (⟨(w.val + d + 312) % 320, Nat.mod_lt _ (by decide)⟩ : Fin 320)) (fun a => match a with
      | ⟨0, _⟩ => by show b.val = 0 + b.val * (0 + 1); omega
      | ⟨1, _⟩ => by show c.val = 0 + c.val * (0 + 1); omega
      | ⟨2, _⟩ => by show r.val = 0 + r.val * (0 + 1); omega
      | ⟨3, _⟩ => by show w.val + d = 8 + (w.val + d + 312) % 320 * (0 + 1); omega)
  · rw [if_neg h]
    refine pad_apply_of_not_inside _ _ _ y v hpad hu _ (3 : Fin 4) (fun hc => h ?_)
    obtain ⟨h1, -, h3⟩ := hc
    have h1' : 8 ≤ w.val + d := h1
    have h3' : (w.val + d - 8) / 1 < 320 := h3
    rw [Nat.div_one] at h3'
    exact ⟨h1', by omega⟩

/-- One displacement of the reference at image `b`, row `r`, column `w`. -/
theorem refDisp_apply (hpad : Arr.Pads (![0, 0, 0, 8] : Fin 4 → Nat) ![0, 0, 0, 32] ![0, 0, 0, 0] Padded)
    (hu : 0 < Unit0.numel) (hsl : Padded.Slices (fun _ => 0) Arr) (hred : Arr.ReducesTo [1] Plane) (d : ℕ) (hd : d < 41)
    (x y : Arr.Idx → EReal) (b : Fin 4) (r : Fin 160) (w : Fin 320) :
    refDisp (F := Ideal) hpad hu hsl hred (BitVec.ofNat 32 d) x y (ix3 b r w)
      = if 8 ≤ w.val + d ∧ w.val + d < 328 then
          ∑ c : Fin 128, x (ix4 b c r w) * y (ix4 b c r (⟨(w.val + d + 312) % 320, Nat.mod_lt _ (by decide)⟩ : Fin 320))
        else 0 := by
  unfold refDisp
  have hred' : Arr.Reduces [1] Plane := by decide
  have hzero : (constant (F := Ideal) Unit0 .f32 0x00000000#32) (Shape.Idx.first hu) = (0 : EReal) := Ideal.ofBits_zero_f32
  have hpadv : (sitofp (F := Ideal) .f32 (constantI Unit0 32 0#32)) (Shape.Idx.first hu) = (0 : EReal) := by
    show (((0#32 : BitVec 32).toInt : ℝ) : EReal) = 0
    simp
  generalize hP : mulf x (Host.dynamicSlice Arr
      (pad Padded ![0, 0, 0, 8] ![0, 0, 0, 32] ![0, 0, 0, 0] y (sitofp (F := Ideal) .f32 (constantI Unit0 32 0#32)) hpad hu)
      (fun k => (((![constantI Unit0 32 0#32, constantI Unit0 32 0#32, constantI Unit0 32 0#32,
        constantI Unit0 32 (BitVec.ofNat 32 d)] : Fin 4 → (⟨Unit0, .i32⟩ : BufTy).Contents (Elt Ideal))) k
        (Shape.Idx.first hu)).toInt) hsl) = P
  simp only [Host.reduceAdd, Ideal.hostReduceAdd_def]
  rw [Ideal.hostReduceAdd_single hred hred', hzero, zero_add]
  show ∑ k : Fin 128, P (hred'.lift (ix3 b r w) k) = _
  have hlift : ∀ k : Fin 128, hred'.lift (ix3 b r w) k = ix4 b k r w := fun k => by
    funext a; apply Fin.ext
    fin_cases a <;> rfl
  have hPk : ∀ k : Fin 128, P (ix4 b k r w)
      = x (ix4 b k r w) * (if 8 ≤ w.val + d ∧ w.val + d < 328 then
          y (ix4 b k r (⟨(w.val + d + 312) % 320, Nat.mod_lt _ (by decide)⟩ : Fin 320)) else 0) := fun k => by
    rw [← hP]
    show x (ix4 b k r w) * _ = _
    rw [slice_pad_apply hpad hu hsl d hd y _ b k r w, hpadv]
  by_cases h : 8 ≤ w.val + d ∧ w.val + d < 328
  · rw [if_pos h]
    refine Finset.sum_congr rfl fun k _ => ?_
    rw [hlift k, hPk k, if_pos h]
  · rw [if_neg h]
    refine Finset.sum_eq_zero fun k _ => ?_
    rw [hlift k, hPk k, if_neg h, mul_zero]

end Cert.Corr

end
-- ==== Proof.RefAll.lean ====
/-
  The reference's result, read at an index: the shifted correlation of its two arguments.

  The reference computes its 41 displacements one after the other — displacement `d` is the channel sum of the first
  array times the cut of the padded second array starting at column `d` (`Cert.Corr.refDisp`) —, gives each a
  displacement axis of extent one, and joins them along that axis: displacements 0–15, 16–31 and 32–40 first, then the
  three groups. Joining puts displacement `d` at coordinate `d`: coordinate `d` of the whole lies in the group that
  starts at `q ∈ {0, 16, 32}`, at coordinate `d − q` of the group, which is its piece number `d − q`, displacement
  `q + (d − q) = d`. Read there, the piece is the correlation at displacement `d` (`refDisp_apply`).
-/
import proofs.«125600_j13580686590324_2_alg».proof.Proof.RefRun
import proofs.«125600_j13580686590324_2_alg».proof.Proof.CorrSpec
import proofs.«125600_j13580686590324_2_alg».proof.Proof.RefSlab

noncomputable section

namespace Cert.ReferenceIdeal.RefValue

open Cert.ReferenceIdeal Cert.ReferenceIdeal.Gen Cert.Corr Idealize.ShloMosaic Idealize.ShloMosaic.ValueIdx
open Idealize.ShloMosaic.TcCoe Idealize.SL.Sem

theorem cat16 : Shape.Concatenates (List.replicate 16 S4x1x160x320) S4x16x160x320 1 := by decide
theorem cat9 : Shape.Concatenates (List.replicate 9 S4x1x160x320) S4x9x160x320 1 := by decide
theorem cat3 : Shape.Concatenates [S4x16x160x320, S4x16x160x320, S4x9x160x320] S4x41x160x320 1 := by decide

section Term
variable {F : FTy → Type} [FloatOps F]

/-- Displacement `d` with its displacement axis of extent one. -/
def slabRef (d : ℕ) (x y : (⟨S4x128x160x320, .f32⟩ : BufTy).Contents (Elt F)) :
    (⟨S4x1x160x320, .f32⟩ : BufTy).Contents (Elt F) :=
  broadcastInDim S4x1x160x320 ![0, 2, 3] bcast_S4x160x320_S4x1x160x320_0_2_3
    (refDisp pads_S4x128x160x320_S4x128x160x360_000_000_000_8320 h_S_ sliceFits_S4x128x160x360_S4x128x160x320
      reducesTo_S4x128x160x320_S4x160x320_d1 (BitVec.ofNat 32 d) x y)

/-- The `N` displacements from `q` on, as the pieces of one join. -/
def group (q N : ℕ) (x y : (⟨S4x128x160x320, .f32⟩ : BufTy).Contents (Elt F)) :
    List ((s : Shape) × (s.Idx → Elt F .f32)) :=
  List.ofFn fun n : Fin N => ⟨S4x1x160x320, slabRef (q + n.val) x y⟩

/-- The three groups, each joined: displacements 0–15, 16–31, 32–40. -/
def parts (x y : (⟨S4x128x160x320, .f32⟩ : BufTy).Contents (Elt F)) : List ((s : Shape) × (s.Idx → Elt F .f32)) :=
  [⟨S4x16x160x320, concatenate S4x16x160x320 1 (group 0 16 x y) cat16⟩,
   ⟨S4x16x160x320, concatenate S4x16x160x320 1 (group 16 16 x y) cat16⟩,
   ⟨S4x9x160x320, concatenate S4x9x160x320 1 (group 32 9 x y) cat9⟩]

/-- The reference's result as a term of its two arguments: three groups of displacements, joined. -/
def refAll (x y : (⟨S4x128x160x320, .f32⟩ : BufTy).Contents (Elt F)) : (⟨S4x41x160x320, .f32⟩ : BufTy).Contents (Elt F) :=
  concatenate S4x41x160x320 1 (parts x y) cat3

/-- The run's result term is that term (it unfolds to it, each start word computed). -/
theorem res_eq_refAll (m : (ℓ : Loc nD τ sig) → Buf (Elt F) ℓ) (c : Dev nD) :
    Cert.ReferenceIdeal.ValueP.res_main_v168 m c
      = refAll (m ((c.tc : Thread nD τ).loc main_arg0)) (m ((c.tc : Thread nD τ).loc main_arg1)) := by
  unfold Cert.ReferenceIdeal.ValueP.res_main_v168
  rfl

end Term

/-- Displacement `d`'s piece at image `b`, row `r`, column `w`. -/
theorem slabRef_apply (d : ℕ) (hd : d < 41) (x y : S4x128x160x320.Idx → EReal) (b : Fin 4) (u : Fin 1) (r : Fin 160)
    (w : Fin 320) :
    slabRef (F := Ideal) d x y (ix4 b u r w)
      = if inside w.val d then ∑ c : Fin 128, x (ix4 b c r w) * y (ix4 b c r (col w.val d)) else 0 := by
  unfold slabRef
  rw [broadcastInDim_apply _ bcast_S4x160x320_S4x1x160x320_0_2_3 _ (ix4 b u r w) (ix3 b r w) (fun a => match a with
    | ⟨0, _⟩ => by show b.val = if (4 : Nat) = 1 then 0 else b.val; rw [if_neg (by decide)]
    | ⟨1, _⟩ => by show r.val = if (160 : Nat) = 1 then 0 else r.val; rw [if_neg (by decide)]
    | ⟨2, _⟩ => by show w.val = if (320 : Nat) = 1 then 0 else w.val; rw [if_neg (by decide)])]
  exact refDisp_apply _ _ _ _ d hd x y b r w

/-- A group of `N` displacements from `q` on, joined, read at its coordinate `n`: displacement `q + n`. -/
theorem group_apply (q N : ℕ) (hqN : q + N ≤ 41) (x y : S4x128x160x320.Idx → EReal)
    (h : Shape.Concatenates ((group (F := Ideal) q N x y).map (·.1)) ⟨4, ![4, N, 160, 320]⟩ 1)
    (b : Fin 4) (n : Fin N) (r : Fin 160) (w : Fin 320) :
    concatenate ⟨4, ![4, N, 160, 320]⟩ 1 (group (F := Ideal) q N x y) h (ix4 b n r w)
      = if inside w.val (q + n.val) then ∑ c : Fin 128, x (ix4 b c r w) * y (ix4 b c r (col w.val (q + n.val))) else 0 := by
  have hn : n.val < N := n.isLt
  unfold group
  exact (concatenate_ofFn_unit_apply (t := ⟨4, ![4, N, 160, 320]⟩) (s₁ := S4x1x160x320) (1 : Fin 4)
    (fun n : Fin N => slabRef (F := Ideal) (q + n.val) x y) h rfl rfl
    (ix4 b n r w) n rfl (ix4 b (0 : Fin 1) r w) (fun a ha => match a, ha with
      | ⟨0, _⟩, _ => rfl
      | ⟨1, _⟩, ha => absurd (Fin.ext rfl) ha
      | ⟨2, _⟩, _ => rfl
      | ⟨3, _⟩, _ => rfl)).trans (slabRef_apply (q + n.val) (by omega) x y b 0 r w)

/-- The reference's result at an index is the correlation there. -/
theorem refAll_eq (x y : S4x128x160x320.Idx → EReal) : refAll (F := Ideal) x y = corr (B := 4) (H := 160) x y := by
  funext i
  obtain ⟨b, d, r, w, rfl⟩ : ∃ (b : Fin 4) (d : Fin 41) (r : Fin 160) (w : Fin 320), i = ix4 b d r w :=
    ⟨i 0, i 1, i 2, i 3, eq_ix4 i⟩
  have hd : d.val < 41 := d.isLt
  rw [corr_ix4]
  unfold refAll
  by_cases h1 : d.val < 16
  · rw [concatenate_apply_piece (t := S4x41x160x320) (1 : Fin 4) (parts (F := Ideal) x y) cat3 (ix4 b d r w) 0 (by show 0 < 3; omega) S4x16x160x320 _ rfl rfl 0 rfl
      (ix4 b (⟨d.val, h1⟩ : Fin 16) r w) (fun a ha => match a, ha with
        | ⟨0, _⟩, _ => rfl
        | ⟨1, _⟩, ha => absurd (Fin.ext rfl) ha
        | ⟨2, _⟩, _ => rfl
        | ⟨3, _⟩, _ => rfl) (by show 0 + d.val = d.val; omega)]
    rw [group_apply 0 16 (by omega) x y cat16 b ⟨d.val, h1⟩ r w]
    have e : 0 + d.val = d.val := Nat.zero_add _
    show (if inside w.val (0 + d.val) then _ else _) = _
    rw [e]
  · by_cases h2 : d.val < 32
    · rw [concatenate_apply_piece (t := S4x41x160x320) (1 : Fin 4) (parts (F := Ideal) x y) cat3 (ix4 b d r w) 1 (by show 1 < 3; omega) S4x16x160x320 _ rfl rfl 16 rfl
        (ix4 b (⟨d.val - 16, by omega⟩ : Fin 16) r w) (fun a ha => match a, ha with
          | ⟨0, _⟩, _ => rfl
          | ⟨1, _⟩, ha => absurd (Fin.ext rfl) ha
          | ⟨2, _⟩, _ => rfl
          | ⟨3, _⟩, _ => rfl) (by show 16 + (d.val - 16) = d.val; omega)]
      rw [group_apply 16 16 (by omega) x y cat16 b ⟨d.val - 16, by omega⟩ r w]
      have e : 16 + (d.val - 16) = d.val := by omega
      show (if inside w.val (16 + (d.val - 16)) then _ else _) = _
      rw [e]
    · rw [concatenate_apply_piece (t := S4x41x160x320) (1 : Fin 4) (parts (F := Ideal) x y) cat3 (ix4 b d r w) 2 (by show 2 < 3; omega) S4x9x160x320 _ rfl rfl 32 rfl
        (ix4 b (⟨d.val - 32, by omega⟩ : Fin 9) r w) (fun a ha => match a, ha with
          | ⟨0, _⟩, _ => rfl
          | ⟨1, _⟩, ha => absurd (Fin.ext rfl) ha
          | ⟨2, _⟩, _ => rfl
          | ⟨3, _⟩, _ => rfl) (by show 32 + (d.val - 32) = d.val; omega)]
      rw [group_apply 32 9 (by omega) x y cat9 b ⟨d.val - 32, by omega⟩ r w]
      have e : 32 + (d.val - 32) = d.val := by omega
      show (if inside w.val (32 + (d.val - 32)) then _ else _) = _
      rw [e]

end Cert.ReferenceIdeal.RefValue

end
-- ==== Proof.RefRunArgs.lean ====
/-
  The reference's straight line of 376 host operations never writes its two argument buffers: each operation writes
  one buffer of its own, and none of those is an argument. So after the line the argument buffers hold what they held
  at launch.
-/
import proofs.«125600_j13580686590324_2_alg».proof.Proof.RefRun

noncomputable section

namespace Cert.ReferenceIdeal.RunValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 100000000 in
/-- The first argument's buffer after the operations is its launch contents. -/
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 8192 in
set_option maxHeartbeats 100000000 in
/-- The second argument's buffer after the operations is its launch contents. -/
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

end Cert.ReferenceIdeal.RunValue

end
-- ==== Proof.LibUnaryIndexed4.lean ====
/-
  The result of a host operation with FOUR index operands given as a literal family, each operand at its own buffer.

  A `stablehlo.dynamic_slice` of a rank-4 tensor is printed `unaryIndexed a ![c0, c1, c2, c3] T y f`: the operand `a`,
  one scalar start index per axis, the result `y`. The library's result lemma hands `f` the family
  `fun k => contents of (![c0, c1, c2, c3] k)`; under that binder the buffer `![c0, c1, c2, c3] k` is no literal, so the
  contents of the index buffers can be rewritten no further. Here the same result with the family spelt out entry by
  entry — `![contents of c0, …, contents of c3]` —, so that rewriting goes on into each index buffer. (The library has the
  same for a four-operand `nary`, `nary4_result`.)
-/
import Idealize.ShloMosaic.Lib.StableHlo.Run

namespace Idealize.ShloMosaic.StableHlo

variable {nD : Nat} {τ : Topo} {sig : RefSig} {Val : EltTy → Type}

/-- `unaryIndexed` over a literal family of four index buffers: the result buffer holds `f` of the operand's contents
    and of the four index buffers' contents, each read at its own buffer. -/
theorem unaryIndexed4_result {a c0 c1 c2 c3 y : Ref sig .tc} (T : BufTy)
    (f : a.ty.Contents Val → (Fin 4 → T.Contents Val) → y.ty.Contents Val) (hT ha hix hy) (F : Valuation τ sig Val) :
    (unaryIndexed (τ := τ) a ![c0, c1, c2, c3] T y f hT ha hix hy).result F (Proc.devRef .tc y)
      = f (F (Proc.devRef .tc a))
          ![cast (congrArg (fun U : BufTy => U.Contents Val) (hT 0)) (F (Proc.devRef .tc c0)),
            cast (congrArg (fun U : BufTy => U.Contents Val) (hT 1)) (F (Proc.devRef .tc c1)),
            cast (congrArg (fun U : BufTy => U.Contents Val) (hT 2)) (F (Proc.devRef .tc c2)),
            cast (congrArg (fun U : BufTy => U.Contents Val) (hT 3)) (F (Proc.devRef .tc c3))] := by
  rw [unaryIndexed_result]
  congr 1
  funext k
  fin_cases k <;> rfl

/-- The same, stated for `simp`: the result buffer un-indexed, as the library's primed result lemmas are. -/
theorem unaryIndexed4_result' {a c0 c1 c2 c3 y : Ref sig .tc} (T : BufTy)
    (f : a.ty.Contents Val → (Fin 4 → T.Contents Val) → y.ty.Contents Val) (hT ha hix hy) (F : Valuation τ sig Val) :
    (unaryIndexed (τ := τ) a ![c0, c1, c2, c3] T y f hT ha hix hy).result F (no_index (Proc.devRef .tc y))
      = f (F (Proc.devRef .tc a))
          ![cast (congrArg (fun U : BufTy => U.Contents Val) (hT 0)) (F (Proc.devRef .tc c0)),
            cast (congrArg (fun U : BufTy => U.Contents Val) (hT 1)) (F (Proc.devRef .tc c1)),
            cast (congrArg (fun U : BufTy => U.Contents Val) (hT 2)) (F (Proc.devRef .tc c2)),
            cast (congrArg (fun U : BufTy => U.Contents Val) (hT 3)) (F (Proc.devRef .tc c3))] :=
  unaryIndexed4_result T f hT ha hix hy F

end Idealize.ShloMosaic.StableHlo
-- ==== Proof.RefRunRes.lean ====
/-
  The reference's result buffer after its straight line of 376 host operations.

  Each operation writes one buffer as a function of buffers written earlier (or of the arguments), so the contents of
  the result buffer after the line is the composition of those functions over the arguments' launch contents: looking
  a buffer up after an operation gives the operation's function of its operands if the operation wrote that buffer, and
  the earlier contents otherwise. The lookups of the four start indices of each cut (`unaryIndexed4_result'`) and of
  the operands of each join (a literal family read at a literal position) are resolved buffer by buffer, so the
  composition is carried all the way down to the two arguments. A join's operands are compared piece by piece: two
  joins of lists of the same shapes are equal when their pieces are, so the outer join gives three equations, one per
  group, and each group's join one equation per displacement; each is a lookup through the line.
-/
import proofs.«125600_j13580686590324_2_alg».proof.Proof.RefRun
import proofs.«125600_j13580686590324_2_alg».proof.Proof.LibUnaryIndexed4

noncomputable section

namespace Cert.ReferenceIdeal.RunValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option backward.isDefEq.respectTransparency.types false in
set_option maxRecDepth 8192 in
set_option maxHeartbeats 200000000 in
/-- The result buffer after the operations is the composed term of the arguments' launch contents. -/
theorem after_res (m : (ℓ : Loc nD τ sig) → Buf (Elt F) ℓ) (c : Dev nD) :
    after (ops (F := F)) (launchContents m c) (Proc.devRef .tc main_v168) = res_main_v168 m c := by
  simp (disch := decide) only [after_cons, after_nil,
    nullary_result', unary_result', binary_result', nary_result', unaryIndexed4_result',
    nullary_result_ne', unary_result_ne', binary_result_ne', nary_result_ne', unaryIndexed_result_ne',
    Matrix.cons_val, cast_eq]
  unfold res_main_v168
  congr 1
  simp only [List.cons.injEq, Sigma.mk.injEq, heq_eq_eq, true_and, and_true]
  refine ⟨?_, ?_, ?_⟩ <;>
  · simp (disch := decide) only [after_cons, after_nil,
    nullary_result', unary_result', binary_result', nary_result', unaryIndexed4_result',
    nullary_result_ne', unary_result_ne', binary_result_ne', nary_result_ne', unaryIndexed_result_ne',
    Matrix.cons_val, cast_eq]
    congr 1
    simp only [List.cons.injEq, Sigma.mk.injEq, heq_eq_eq, true_and, and_true]
    and_intros <;> simp (disch := decide) only [after_cons, after_nil,
    nullary_result', unary_result', binary_result', nary_result', unaryIndexed4_result',
    nullary_result_ne', unary_result_ne', binary_result_ne', nary_result_ne', unaryIndexed_result_ne',
    Matrix.cons_val, cast_eq]

end Cert.ReferenceIdeal.RunValue

end
-- ==== Proof.RefRunPost.lean ====
/-
  The reference's run: every weakly fair execution of its straight line of host operations terminates, nothing
  faulting, with the result buffer at the composed term of the arguments and the arguments unchanged — the general
  theorem for a straight line (each buffer ends at the fold of the operations' results over the launch contents), read
  at the three buffers.
-/
import proofs.«125600_j13580686590324_2_alg».proof.Proof.RefRunArgs
import proofs.«125600_j13580686590324_2_alg».proof.Proof.RefRunRes

noncomputable section

namespace Cert.ReferenceIdeal.RunValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168) = res_main_v168 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v168).trans (after_res m c),
      (h c main_arg0).trans (after_arg0 m c), (h c main_arg1).trans (after_arg1 m c)⟩)
    (run_seq scopedRefs_eq scopedSems_eq defs main (fun _ => ops) main_eq (fun _ => ops_sub) m ρ)

end Cert.ReferenceIdeal.RunValue

end
-- ==== Proof.lean ====
/-
  A one-dimensional correlation cost volume: the kernel against its jnp reference, at the ideal instance.

  Both programs take two arrays `x y` of shape [4, 128, 160, 320] (image, channel, row, column) and return
  [4, 41, 160, 320]: for each of 41 displacements `d`,
      out (b, d, r, w) = Σ_{c < 128} x (b, c, r, w) · ŷ (b, c, r, w + d − 8),
  where `ŷ` is `y` with zeros outside its 320 columns (`Cert.Corr.corr`, Proof/CorrSpec.lean).

  The reference does exactly this: it pads `y`'s rows with 8 zeros in front and 32 behind, cuts 320 columns starting at
  column `d`, multiplies by `x`, sums over the channels, and stacks the 41 results (Proof/RefSlab.lean for one
  displacement, Proof/RefAll.lean for the stack).

  The kernel works on one image's 32 rows at a time. For displacement `d` it rotates `y`'s rows by `(8 − d) mod 320`
  columns, so that column `w` holds `y`'s column `(w + d − 8) mod 320`; multiplies by `x`; sums the channels in four
  chunks of 32, adding the chunk sums to zero in order; and keeps the result only at the columns where
  `0 ≤ w + d − 8 < 320`, writing zero at the others — the columns where the rotation wrapped around are exactly the
  ones discarded (Proof/KerSlab.lean for one displacement, Proof/KerBlock.lean for a block, Proof/KerArray.lean for
  the array).

  The two agree on all extended reals: inside the row both are the same sum of the same products (a sum over 128
  channels is the sum of its four quarters, by associativity of `+`); off the row the reference sums products with
  zero, and `a · 0 = 0` for every extended real `a`, so its sum is the zero the kernel writes. No law used fails at
  an infinity, so the finiteness of the inputs is not needed for the equality.

  The ideal pass rewrote nothing in this kernel, so `preserves` has no conjunct. The three frames are the generated
  frame certificates of the two kernel programs and the reference's run with its result dropped.
-/
import proofs.«125600_j13580686590324_2_alg».proof.Defs
import proofs.«125600_j13580686590324_2_alg».proof.Proof.Gen.Kernel
import proofs.«125600_j13580686590324_2_alg».proof.Proof.Gen.Kernel.Skeleton
import proofs.«125600_j13580686590324_2_alg».proof.Proof.Gen.Kernel.Launch
import proofs.«125600_j13580686590324_2_alg».proof.Proof.Gen.Kernel.Points
import proofs.«125600_j13580686590324_2_alg».proof.Proof.Gen.Kernel.Frame
import proofs.«125600_j13580686590324_2_alg».proof.Proof.Gen.KernelIdeal
import proofs.«125600_j13580686590324_2_alg».proof.Proof.Gen.KernelIdeal.Skeleton
import proofs.«125600_j13580686590324_2_alg».proof.Proof.Gen.KernelIdeal.Launch
import proofs.«125600_j13580686590324_2_alg».proof.Proof.Gen.KernelIdeal.Points
import proofs.«125600_j13580686590324_2_alg».proof.Proof.Gen.KernelIdeal.Frame
import proofs.«125600_j13580686590324_2_alg».proof.Proof.Gen.ReferenceIdeal
import proofs.«125600_j13580686590324_2_alg».proof.Proof.Gen.Pre_finite_inputs
import proofs.«125600_j13580686590324_2_alg».proof.Proof.KerArray
import proofs.«125600_j13580686590324_2_alg».proof.Proof.RefAll
import proofs.«125600_j13580686590324_2_alg».proof.Proof.RefRunPost
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- The ideal pass rewrote no operation of this kernel: nothing to preserve. -/
theorem preserves : Cert.preserves_Kernel_KernelIdeal := trivial

/-- Both programs end with the correlation of the arguments in their result array: the kernel block by block, the
    reference displacement by displacement; the arguments agree, so the results are equal. -/
theorem algebraic : Cert.algebraic_KernelIdeal_ReferenceIdeal := by
  intro m ρ m' ρ' _ hagree
  refine ⟨fun c => Cert.Corr.corr (B := 4) (H := 160)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.RunValue.run (F := Ideal) m' ρ')
  rw [Cert.ReferenceIdeal.RefValue.res_eq_refAll, Cert.ReferenceIdeal.RefValue.refAll_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
